-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2 : Shape := ⟨2, ![32768, 2]⟩
abbrev S32768 : Shape := ⟨1, ![32768]⟩
abbrev S_ : Shape := ⟨0, ![]⟩

class Facts : Prop where
  bcast_S_S32768x2 : S_.BroadcastsInDim S32768x2 (![] : Fin 0 → Fin S32768x2.rank)
  reducesTo_S32768x2_S_d0_1 : S32768x2.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x2 .f32) (main_arg1 : FVec F S32768 .f32) : IVec S_ 1 :=
  let main_v0 : FVec F S32768x2 .f32 := Host.absf main_arg0
  let main_cst : FVec F S_ .f32 := constant S_ .f32 0x7F800000#32
  let main_v1 : FVec F S32768x2 .f32 := broadcastInDim S32768x2 ![] bcast_S_S32768x2 main_cst
  let main_v2 : IVec S32768x2 1 := cmpf .olt main_v0 main_v1
  let main_c : IVec S_ 1 := constantI S_ 1 1#1
  let main_v3 : IVec S_ 1 := (fun x v => Host.reduce IntOp.andi x v reducesTo_S32768x2_S_d0_1 h_S_) main_v2 main_c
  let main_v4 : FVec F S32768 .f32 := Host.absf main_arg1
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  main_v8
-- ==== Kernel.lean ====
abbrev S32768x2 : Shape := ⟨2, ![32768, 2]⟩
abbrev S32768 : Shape := ⟨1, ![32768]⟩
abbrev S32768x1 : Shape := ⟨2, ![32768, 1]⟩
abbrev S_ : Shape := ⟨0, ![]⟩
abbrev S3600 : Shape := ⟨1, ![3600]⟩
abbrev S1x32768 : Shape := ⟨2, ![1, 32768]⟩
abbrev S3600x1 : Shape := ⟨2, ![3600, 1]⟩
abbrev S3600x32768 : Shape := ⟨2, ![3600, 32768]⟩
abbrev S16x1 : Shape := ⟨2, ![16, 1]⟩
abbrev S16x32768 : Shape := ⟨2, ![16, 32768]⟩

abbrev nBuf : Space → Nat
  | .hbm => 106
  | .vmem => 14
  | .smem => 0
  | _ => 0

abbrev bufTy : (tb : Table) → Fin (tcTables nBuf tb) → BufTy
  | .hbm, ⟨0, _⟩ => ⟨S32768x2, .f32⟩
  | .hbm, ⟨1, _⟩ => ⟨S32768, .f32⟩
  | .hbm, ⟨2, _⟩ => ⟨S32768x1, .f32⟩
  | .hbm, ⟨3, _⟩ => ⟨S32768, .f32⟩
  | .hbm, ⟨4, _⟩ => ⟨S32768x1, .f32⟩
  | .hbm, ⟨5, _⟩ => ⟨S32768, .f32⟩
  | .hbm, ⟨6, _⟩ => ⟨S32768, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S32768, .i32⟩
  | .hbm, ⟨16, _⟩ => ⟨S32768, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32768, .f32⟩
  | .hbm, ⟨21, _⟩ => ⟨S32768, .f32⟩
  | .hbm, ⟨22, _⟩ => ⟨S_, .f32⟩
  | .hbm, ⟨23, _⟩ => ⟨S32768, .f32⟩
  | .hbm, ⟨24, _⟩ => ⟨S32768, .f32⟩
  | .hbm, ⟨25, _⟩ => ⟨S32768, .i32⟩
  | .hbm, ⟨26, _⟩ => ⟨S32768, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32768, .f32⟩
  | .hbm, ⟨31, _⟩ => ⟨S32768, .f32⟩
  | .hbm, ⟨32, _⟩ => ⟨S_, .f32⟩
  | .hbm, ⟨33, _⟩ => ⟨S32768, .f32⟩
  | .hbm, ⟨34, _⟩ => ⟨S32768, .f32⟩
  | .hbm, ⟨35, _⟩ => ⟨S32768, .i32⟩
  | .hbm, ⟨36, _⟩ => ⟨S32768, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S32768, .f32⟩
  | .hbm, ⟨41, _⟩ => ⟨S32768, .f32⟩
  | .hbm, ⟨42, _⟩ => ⟨S_, .f32⟩
  | .hbm, ⟨43, _⟩ => ⟨S32768, .f32⟩
  | .hbm, ⟨44, _⟩ => ⟨S32768, .f32⟩
  | .hbm, ⟨45, _⟩ => ⟨S32768, .i32⟩
  | .hbm, ⟨46, _⟩ => ⟨S3600, .i32⟩
  | .hbm, ⟨47, _⟩ => ⟨S_, .i32⟩
  | .hbm, ⟨48, _⟩ => ⟨S_, .i32⟩
  | .hbm, ⟨49, _⟩ => ⟨S3600, .i32⟩
  | .hbm, ⟨50, _⟩ => ⟨S3600, .i32⟩
  | .hbm, ⟨51, _⟩ => ⟨S3600, .i32⟩
  | .hbm, ⟨52, _⟩ => ⟨S_, .i32⟩
  | .hbm, ⟨53, _⟩ => ⟨S3600, .i32⟩
  | .hbm, ⟨54, _⟩ => ⟨S3600, .i1⟩
  | .hbm, ⟨55, _⟩ => ⟨S3600, .i32⟩
  | .hbm, ⟨56, _⟩ => ⟨S3600, .i32⟩
  | .hbm, ⟨57, _⟩ => ⟨S_, .i32⟩
  | .hbm, ⟨58, _⟩ => ⟨S3600, .i32⟩
  | .hbm, ⟨59, _⟩ => ⟨S3600, .i1⟩
  | .hbm, ⟨60, _⟩ => ⟨S3600, .i1⟩
  | .hbm, ⟨61, _⟩ => ⟨S_, .i32⟩
  | .hbm, ⟨62, _⟩ => ⟨S3600, .i32⟩
  | .hbm, ⟨63, _⟩ => ⟨S3600, .i32⟩
  | .hbm, ⟨64, _⟩ => ⟨S3600, .i32⟩
  | .hbm, ⟨65, _⟩ => ⟨S_, .i32⟩
  | .hbm, ⟨66, _⟩ => ⟨S3600, .i32⟩
  | .hbm, ⟨67, _⟩ => ⟨S3600, .i32⟩
  | .hbm, ⟨68, _⟩ => ⟨S3600, .i32⟩
  | .hbm, ⟨69, _⟩ => ⟨S_, .i32⟩
  | .hbm, ⟨70, _⟩ => ⟨S3600, .i32⟩
  | .hbm, ⟨71, _⟩ => ⟨S3600, .i32⟩
  | .hbm, ⟨72, _⟩ => ⟨S_, .i32⟩
  | .hbm, ⟨73, _⟩ => ⟨S3600, .i32⟩
  | .hbm, ⟨74, _⟩ => ⟨S3600, .i32⟩
  | .hbm, ⟨75, _⟩ => ⟨S_, .i32⟩
  | .hbm, ⟨76, _⟩ => ⟨S3600, .i32⟩
  | .hbm, ⟨77, _⟩ => ⟨S3600, .i32⟩
  | .hbm, ⟨78, _⟩ => ⟨S_, .i32⟩
  | .hbm, ⟨79, _⟩ => ⟨S3600, .i32⟩
  | .hbm, ⟨80, _⟩ => ⟨S3600, .i32⟩
  | .hbm, ⟨81, _⟩ => ⟨S_, .i32⟩
  | .hbm, ⟨82, _⟩ => ⟨S3600, .i32⟩
  | .hbm, ⟨83, _⟩ => ⟨S3600, .i32⟩
  | .hbm, ⟨84, _⟩ => ⟨S_, .i32⟩
  | .hbm, ⟨85, _⟩ => ⟨S3600, .i32⟩
  | .hbm, ⟨86, _⟩ => ⟨S3600, .i32⟩
  | .hbm, ⟨87, _⟩ => ⟨S_, .i32⟩
  | .hbm, ⟨88, _⟩ => ⟨S3600, .i32⟩
  | .hbm, ⟨89, _⟩ => ⟨S3600, .i32⟩
  | .hbm, ⟨90, _⟩ => ⟨S_, .i32⟩
  | .hbm, ⟨91, _⟩ => ⟨S3600, .i32⟩
  | .hbm, ⟨92, _⟩ => ⟨S3600, .i32⟩
  | .hbm, ⟨93, _⟩ => ⟨S1x32768, .i32⟩
  | .hbm, ⟨94, _⟩ => ⟨S1x32768, .i32⟩
  | .hbm, ⟨95, _⟩ => ⟨S1x32768, .i32⟩
  | .hbm, ⟨96, _⟩ => ⟨S1x32768, .i32⟩
  | .hbm, ⟨97, _⟩ => ⟨S3600x1, .i32⟩
  | .hbm, ⟨98, _⟩ => ⟨S3600x1, .i32⟩
  | .hbm, ⟨99, _⟩ => ⟨S3600x1, .i32⟩
  | .hbm, ⟨100, _⟩ => ⟨S3600x1, .i32⟩
  | .hbm, ⟨101, _⟩ => ⟨S3600x32768, .i32⟩
  | .hbm, ⟨102, _⟩ => ⟨S_, .i32⟩
  | .hbm, ⟨103, _⟩ => ⟨S3600x32768, .i32⟩
  | .hbm, ⟨104, _⟩ => ⟨S3600x32768, .i1⟩
  | .hbm, ⟨105, _⟩ => ⟨S3600x32768, .i1⟩
  | .local _ .vmem, ⟨0, _⟩ => ⟨S1x32768, .i32⟩
  | .local _ .vmem, ⟨1, _⟩ => ⟨S1x32768, .i32⟩
  | .local _ .vmem, ⟨2, _⟩ => ⟨S1x32768, .i32⟩
  | .local _ .vmem, ⟨3, _⟩ => ⟨S1x32768, .i32⟩
  | .local _ .vmem, ⟨4, _⟩ => ⟨S16x1, .i32⟩
  | .local _ .vmem, ⟨5, _⟩ => ⟨S16x1, .i32⟩
  | .local _ .vmem, ⟨6, _⟩ => ⟨S16x1, .i32⟩
  | .local _ .vmem, ⟨7, _⟩ => ⟨S16x1, .i32⟩
  | .local _ .vmem, ⟨8, _⟩ => ⟨S16x1, .i32⟩
  | .local _ .vmem, ⟨9, _⟩ => ⟨S16x1, .i32⟩
  | .local _ .vmem, ⟨10, _⟩ => ⟨S16x1, .i32⟩
  | .local _ .vmem, ⟨11, _⟩ => ⟨S16x1, .i32⟩
  | .local _ .vmem, ⟨12, _⟩ => ⟨S16x32768, .i32⟩
  | .local _ .vmem, ⟨13, _⟩ => ⟨S16x32768, .i32⟩
  | _, _ => ⟨S32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_cst_4 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_5 : Ref sig .tc := ⟨.hbm, 37, rfl⟩
abbrev main_cst_6 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_call4_v5 : Ref sig .tc := ⟨.hbm, 53, rfl⟩
abbrev main_call4_v6 : Ref sig .tc := ⟨.hbm, 54, rfl⟩
abbrev main_call4_v7 : Ref sig .tc := ⟨.hbm, 55, rfl⟩
abbrev main_call4_v8 : Ref sig .tc := ⟨.hbm, 56, rfl⟩
abbrev main_call4_c : Ref sig .tc := ⟨.hbm, 57, rfl⟩
abbrev main_call4_v9 : Ref sig .tc := ⟨.hbm, 58, rfl⟩
abbrev main_call4_v10 : Ref sig .tc := ⟨.hbm, 59, rfl⟩
abbrev main_call4_v11 : Ref sig .tc := ⟨.hbm, 60, rfl⟩
abbrev main_call4_c_0 : Ref sig .tc := ⟨.hbm, 61, rfl⟩
abbrev main_call4_v12 : Ref sig .tc := ⟨.hbm, 62, rfl⟩
abbrev main_call4_v13 : Ref sig .tc := ⟨.hbm, 63, rfl⟩
abbrev main_v17 : Ref sig .tc := ⟨.hbm, 64, rfl⟩
abbrev main_c_7 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_c_8 : Ref sig .tc := ⟨.hbm, 69, rfl⟩
abbrev main_v21 : Ref sig .tc := ⟨.hbm, 70, rfl⟩
abbrev main_v22 : Ref sig .tc := ⟨.hbm, 71, rfl⟩
abbrev main_c_9 : Ref sig .tc := ⟨.hbm, 72, rfl⟩
abbrev main_v23 : Ref sig .tc := ⟨.hbm, 73, rfl⟩
abbrev main_v24 : Ref sig .tc := ⟨.hbm, 74, rfl⟩
abbrev main_c_10 : Ref sig .tc := ⟨.hbm, 75, rfl⟩
abbrev main_v25 : Ref sig .tc := ⟨.hbm, 76, rfl⟩
abbrev main_v26 : Ref sig .tc := ⟨.hbm, 77, rfl⟩
abbrev main_c_11 : Ref sig .tc := ⟨.hbm, 78, rfl⟩
abbrev main_v27 : Ref sig .tc := ⟨.hbm, 79, rfl⟩
abbrev main_v28 : Ref sig .tc := ⟨.hbm, 80, rfl⟩
abbrev main_c_12 : Ref sig .tc := ⟨.hbm, 81, rfl⟩
abbrev main_v29 : Ref sig .tc := ⟨.hbm, 82, rfl⟩
abbrev main_v30 : Ref sig .tc := ⟨.hbm, 83, rfl⟩
abbrev main_c_13 : Ref sig .tc := ⟨.hbm, 84, rfl⟩
abbrev main_v31 : Ref sig .tc := ⟨.hbm, 85, rfl⟩
abbrev main_v32 : Ref sig .tc := ⟨.hbm, 86, rfl⟩
abbrev main_c_14 : Ref sig .tc := ⟨.hbm, 87, rfl⟩
abbrev main_v33 : Ref sig .tc := ⟨.hbm, 88, rfl⟩
abbrev main_v34 : Ref sig .tc := ⟨.hbm, 89, rfl⟩
abbrev main_c_15 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_c_16 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![225], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32768 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x32768 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32768 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32768 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32768 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S32768x2_S32768x1_0_0 : S32768x2.Slices ![0, 0] S32768x1
  shapeCasts_S32768x1_S32768 : S32768x1.ShapeCasts S32768
  slices_S32768x2_S32768x1_0_1 : S32768x2.Slices ![0, 1] S32768x1
  bcast_S_S32768 : S_.BroadcastsInDim S32768 (![] : Fin 0 → Fin S32768.rank)
  bcast_S_S3600 : S_.BroadcastsInDim S3600 (![] : Fin 0 → Fin S3600.rank)
  shapeCasts_S32768_S1x32768 : S32768.ShapeCasts S1x32768
  shapeCasts_S3600_S3600x1 : S3600.ShapeCasts S3600x1
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S1x32768_S16x32768 : S1x32768.Broadcasts S16x32768
  broadcasts_S16x1_S16x32768 : S16x1.Broadcasts S16x32768
  inb_S16x32768_S16x32768_0_0 : ∀ a, (![0, 0] : Fin 2 → Nat) a + S16x32768.size a ≤ S16x32768.size a
  h_S16x32768 : 0 < S16x32768.numel
  natLt_1_32 : 1 < 32
  bcast_S_S3600x32768 : S_.BroadcastsInDim S3600x32768 (![] : Fin 0 → Fin S3600x32768.rank)
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x32768.size a ≤ S1x32768.size a
  hwx0_0 : ∀ i : grid0.Coords, EltTy.bits .i32 = 32 ∨ (Rect.block (s := S1x32768) S1x32768.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x32768.size a
  hwx0_1 : ∀ i : grid0.Coords, EltTy.bits .i32 = 32 ∨ (Rect.block (s := S1x32768) S1x32768.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x32768.size a
  hwx0_2 : ∀ i : grid0.Coords, EltTy.bits .i32 = 32 ∨ (Rect.block (s := S1x32768) S1x32768.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32768.size a ≤ S1x32768.size a
  hwx0_3 : ∀ i : grid0.Coords, EltTy.bits .i32 = 32 ∨ (Rect.block (s := S1x32768) S1x32768.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S3600x1.size a
  hwx0_4 : ∀ i : grid0.Coords, EltTy.bits .i32 = 32 ∨ (Rect.block (s := S3600x1) S16x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S3600x1.size a
  hwx0_5 : ∀ i : grid0.Coords, EltTy.bits .i32 = 32 ∨ (Rect.block (s := S3600x1) S16x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S3600x1.size a
  hwx0_6 : ∀ i : grid0.Coords, EltTy.bits .i32 = 32 ∨ (Rect.block (s := S3600x1) S16x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S3600x1.size a
  hwx0_7 : ∀ i : grid0.Coords, EltTy.bits .i32 = 32 ∨ (Rect.block (s := S3600x1) S16x1.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x32768.size a ≤ S3600x32768.size a
  hwx0_8 : ∀ i : grid0.Coords, EltTy.bits .i32 = 32 ∨ (Rect.block (s := S3600x32768) S16x32768.size (cc0_transform_8 i) (hinb0_8 i)).WholeWords (EltTy.packing .i32)

variable [Facts₀]

abbrev win0_0 : Pipeline.Window sig grid0 :=
  Pipeline.Window.ofSpec (Memref.whole main_v37) S1x32768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1x32768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x32768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x32768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S16x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42) S16x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v43) S16x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v44) S16x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v45) S16x32768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x2 : Shape := ⟨2, ![32768, 2]⟩
abbrev S32768 : Shape := ⟨1, ![32768]⟩
abbrev S32768x1 : Shape := ⟨2, ![32768, 1]⟩
abbrev S_ : Shape := ⟨0, ![]⟩
abbrev S3600 : Shape := ⟨1, ![3600]⟩
abbrev S1x32768 : Shape := ⟨2, ![1, 32768]⟩
abbrev S3600x1 : Shape := ⟨2, ![3600, 1]⟩
abbrev S3600x32768 : Shape := ⟨2, ![3600, 32768]⟩

abbrev nBuf : Space → Nat
  | .hbm => 120
  | .vmem => 0
  | .smem => 0
  | _ => 0

abbrev bufTy : (tb : Table) → Fin (tcTables nBuf tb) → BufTy
  | .hbm, ⟨0, _⟩ => ⟨S32768x2, .f32⟩
  | .hbm, ⟨1, _⟩ => ⟨S32768, .f32⟩
  | .hbm, ⟨2, _⟩ => ⟨S32768x1, .f32⟩
  | .hbm, ⟨3, _⟩ => ⟨S32768, .f32⟩
  | .hbm, ⟨4, _⟩ => ⟨S32768, .f32⟩
  | .hbm, ⟨5, _⟩ => ⟨S_, .i32⟩
  | .hbm, ⟨6, _⟩ => ⟨S_, .i32⟩
  | .hbm, ⟨7, _⟩ => ⟨S_, .f32⟩
  | .hbm, ⟨8, _⟩ => ⟨S32768, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768, .i32⟩
  | .hbm, ⟨14, _⟩ => ⟨S32768x1, .f32⟩
  | .hbm, ⟨15, _⟩ => ⟨S32768, .f32⟩
  | .hbm, ⟨16, _⟩ => ⟨S32768, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S32768, .f32⟩
  | .hbm, ⟨21, _⟩ => ⟨S32768, .f32⟩
  | .hbm, ⟨22, _⟩ => ⟨S_, .f32⟩
  | .hbm, ⟨23, _⟩ => ⟨S32768, .f32⟩
  | .hbm, ⟨24, _⟩ => ⟨S32768, .f32⟩
  | .hbm, ⟨25, _⟩ => ⟨S32768, .i32⟩
  | .hbm, ⟨26, _⟩ => ⟨S32768x1, .f32⟩
  | .hbm, ⟨27, _⟩ => ⟨S32768, .f32⟩
  | .hbm, ⟨28, _⟩ => ⟨S32768, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S32768, .f32⟩
  | .hbm, ⟨33, _⟩ => ⟨S32768, .f32⟩
  | .hbm, ⟨34, _⟩ => ⟨S_, .f32⟩
  | .hbm, ⟨35, _⟩ => ⟨S32768, .f32⟩
  | .hbm, ⟨36, _⟩ => ⟨S32768, .f32⟩
  | .hbm, ⟨37, _⟩ => ⟨S32768, .i32⟩
  | .hbm, ⟨38, _⟩ => ⟨S32768x1, .f32⟩
  | .hbm, ⟨39, _⟩ => ⟨S32768, .f32⟩
  | .hbm, ⟨40, _⟩ => ⟨S32768, .f32⟩
  | .hbm, ⟨41, _⟩ => ⟨S_, .i32⟩
  | .hbm, ⟨42, _⟩ => ⟨S_, .i32⟩
  | .hbm, ⟨43, _⟩ => ⟨S_, .f32⟩
  | .hbm, ⟨44, _⟩ => ⟨S32768, .f32⟩
  | .hbm, ⟨45, _⟩ => ⟨S32768, .f32⟩
  | .hbm, ⟨46, _⟩ => ⟨S_, .f32⟩
  | .hbm, ⟨47, _⟩ => ⟨S32768, .f32⟩
  | .hbm, ⟨48, _⟩ => ⟨S32768, .f32⟩
  | .hbm, ⟨49, _⟩ => ⟨S32768, .i32⟩
  | .hbm, ⟨50, _⟩ => ⟨S3600, .i32⟩
  | .hbm, ⟨51, _⟩ => ⟨S_, .i32⟩
  | .hbm, ⟨52, _⟩ => ⟨S_, .i32⟩
  | .hbm, ⟨53, _⟩ => ⟨S3600, .i32⟩
  | .hbm, ⟨54, _⟩ => ⟨S3600, .i32⟩
  | .hbm, ⟨55, _⟩ => ⟨S3600, .i32⟩
  | .hbm, ⟨56, _⟩ => ⟨S_, .i32⟩
  | .hbm, ⟨57, _⟩ => ⟨S3600, .i32⟩
  | .hbm, ⟨58, _⟩ => ⟨S3600, .i1⟩
  | .hbm, ⟨59, _⟩ => ⟨S3600, .i32⟩
  | .hbm, ⟨60, _⟩ => ⟨S3600, .i32⟩
  | .hbm, ⟨61, _⟩ => ⟨S_, .i32⟩
  | .hbm, ⟨62, _⟩ => ⟨S3600, .i32⟩
  | .hbm, ⟨63, _⟩ => ⟨S3600, .i1⟩
  | .hbm, ⟨64, _⟩ => ⟨S3600, .i1⟩
  | .hbm, ⟨65, _⟩ => ⟨S_, .i32⟩
  | .hbm, ⟨66, _⟩ => ⟨S3600, .i32⟩
  | .hbm, ⟨67, _⟩ => ⟨S3600, .i32⟩
  | .hbm, ⟨68, _⟩ => ⟨S3600, .i32⟩
  | .hbm, ⟨69, _⟩ => ⟨S_, .i32⟩
  | .hbm, ⟨70, _⟩ => ⟨S3600, .i32⟩
  | .hbm, ⟨71, _⟩ => ⟨S3600, .i32⟩
  | .hbm, ⟨72, _⟩ => ⟨S3600, .i32⟩
  | .hbm, ⟨73, _⟩ => ⟨S_, .i32⟩
  | .hbm, ⟨74, _⟩ => ⟨S3600, .i32⟩
  | .hbm, ⟨75, _⟩ => ⟨S3600, .i32⟩
  | .hbm, ⟨76, _⟩ => ⟨S_, .i32⟩
  | .hbm, ⟨77, _⟩ => ⟨S3600, .i32⟩
  | .hbm, ⟨78, _⟩ => ⟨S3600, .i32⟩
  | .hbm, ⟨79, _⟩ => ⟨S_, .i32⟩
  | .hbm, ⟨80, _⟩ => ⟨S3600, .i32⟩
  | .hbm, ⟨81, _⟩ => ⟨S3600, .i32⟩
  | .hbm, ⟨82, _⟩ => ⟨S_, .i32⟩
  | .hbm, ⟨83, _⟩ => ⟨S3600, .i32⟩
  | .hbm, ⟨84, _⟩ => ⟨S3600, .i32⟩
  | .hbm, ⟨85, _⟩ => ⟨S_, .i32⟩
  | .hbm, ⟨86, _⟩ => ⟨S3600, .i32⟩
  | .hbm, ⟨87, _⟩ => ⟨S3600, .i32⟩
  | .hbm, ⟨88, _⟩ => ⟨S_, .i32⟩
  | .hbm, ⟨89, _⟩ => ⟨S3600, .i32⟩
  | .hbm, ⟨90, _⟩ => ⟨S3600, .i32⟩
  | .hbm, ⟨91, _⟩ => ⟨S_, .i32⟩
  | .hbm, ⟨92, _⟩ => ⟨S3600, .i32⟩
  | .hbm, ⟨93, _⟩ => ⟨S3600, .i32⟩
  | .hbm, ⟨94, _⟩ => ⟨S_, .i32⟩
  | .hbm, ⟨95, _⟩ => ⟨S3600, .i32⟩
  | .hbm, ⟨96, _⟩ => ⟨S3600, .i32⟩
  | .hbm, ⟨97, _⟩ => ⟨S1x32768, .i32⟩
  | .hbm, ⟨98, _⟩ => ⟨S3600x1, .i32⟩
  | .hbm, ⟨99, _⟩ => ⟨S3600x32768, .i32⟩
  | .hbm, ⟨100, _⟩ => ⟨S3600x32768, .i32⟩
  | .hbm, ⟨101, _⟩ => ⟨S3600x32768, .i32⟩
  | .hbm, ⟨102, _⟩ => ⟨S1x32768, .i32⟩
  | .hbm, ⟨103, _⟩ => ⟨S3600x1, .i32⟩
  | .hbm, ⟨104, _⟩ => ⟨S3600x32768, .i32⟩
  | .hbm, ⟨105, _⟩ => ⟨S3600x32768, .i32⟩
  | .hbm, ⟨106, _⟩ => ⟨S3600x32768, .i32⟩
  | .hbm, ⟨107, _⟩ => ⟨S1x32768, .i32⟩
  | .hbm, ⟨108, _⟩ => ⟨S3600x1, .i32⟩
  | .hbm, ⟨109, _⟩ => ⟨S3600x32768, .i32⟩
  | .hbm, ⟨110, _⟩ => ⟨S3600x32768, .i32⟩
  | .hbm, ⟨111, _⟩ => ⟨S3600x32768, .i32⟩
  | .hbm, ⟨112, _⟩ => ⟨S1x32768, .i32⟩
  | .hbm, ⟨113, _⟩ => ⟨S3600x1, .i32⟩
  | .hbm, ⟨114, _⟩ => ⟨S3600x32768, .i32⟩
  | .hbm, ⟨115, _⟩ => ⟨S3600x32768, .i32⟩
  | .hbm, ⟨116, _⟩ => ⟨S3600x32768, .i32⟩
  | .hbm, ⟨117, _⟩ => ⟨S3600x32768, .i1⟩
  | .hbm, ⟨118, _⟩ => ⟨S3600x32768, .i1⟩
  | .hbm, ⟨119, _⟩ => ⟨S3600x32768, .i1⟩
  | _, _ => ⟨S32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_c_4 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_5 : Ref sig .tc := ⟨.hbm, 41, rfl⟩
abbrev main_c_6 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_7 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_v5 : Ref sig .tc := ⟨.hbm, 57, rfl⟩
abbrev main_call4_v6 : Ref sig .tc := ⟨.hbm, 58, rfl⟩
abbrev main_call4_v7 : Ref sig .tc := ⟨.hbm, 59, rfl⟩
abbrev main_call4_v8 : Ref sig .tc := ⟨.hbm, 60, rfl⟩
abbrev main_call4_c : Ref sig .tc := ⟨.hbm, 61, rfl⟩
abbrev main_call4_v9 : Ref sig .tc := ⟨.hbm, 62, rfl⟩
abbrev main_call4_v10 : Ref sig .tc := ⟨.hbm, 63, rfl⟩
abbrev main_call4_v11 : Ref sig .tc := ⟨.hbm, 64, rfl⟩
abbrev main_call4_c_0 : Ref sig .tc := ⟨.hbm, 65, rfl⟩
abbrev main_call4_v12 : Ref sig .tc := ⟨.hbm, 66, rfl⟩
abbrev main_call4_v13 : Ref sig .tc := ⟨.hbm, 67, rfl⟩
abbrev main_v21 : Ref sig .tc := ⟨.hbm, 68, rfl⟩
abbrev main_c_8 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_9 : Ref sig .tc := ⟨.hbm, 73, rfl⟩
abbrev main_v25 : Ref sig .tc := ⟨.hbm, 74, rfl⟩
abbrev main_v26 : Ref sig .tc := ⟨.hbm, 75, rfl⟩
abbrev main_c_10 : Ref sig .tc := ⟨.hbm, 76, rfl⟩
abbrev main_v27 : Ref sig .tc := ⟨.hbm, 77, rfl⟩
abbrev main_v28 : Ref sig .tc := ⟨.hbm, 78, rfl⟩
abbrev main_c_11 : Ref sig .tc := ⟨.hbm, 79, rfl⟩
abbrev main_v29 : Ref sig .tc := ⟨.hbm, 80, rfl⟩
abbrev main_v30 : Ref sig .tc := ⟨.hbm, 81, rfl⟩
abbrev main_c_12 : Ref sig .tc := ⟨.hbm, 82, rfl⟩
abbrev main_v31 : Ref sig .tc := ⟨.hbm, 83, rfl⟩
abbrev main_v32 : Ref sig .tc := ⟨.hbm, 84, rfl⟩
abbrev main_c_13 : Ref sig .tc := ⟨.hbm, 85, rfl⟩
abbrev main_v33 : Ref sig .tc := ⟨.hbm, 86, rfl⟩
abbrev main_v34 : Ref sig .tc := ⟨.hbm, 87, rfl⟩
abbrev main_c_14 : Ref sig .tc := ⟨.hbm, 88, rfl⟩
abbrev main_v35 : Ref sig .tc := ⟨.hbm, 89, rfl⟩
abbrev main_v36 : Ref sig .tc := ⟨.hbm, 90, rfl⟩
abbrev main_c_15 : Ref sig .tc := ⟨.hbm, 91, rfl⟩
abbrev main_v37 : Ref sig .tc := ⟨.hbm, 92, rfl⟩
abbrev main_v38 : Ref sig .tc := ⟨.hbm, 93, rfl⟩
abbrev main_c_16 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩

abbrev nD : Nat := 1
abbrev τ : Topo := Topo.v7x

variable {F : FTy → Type} [FloatOps F]

class Facts₀ : Prop where
  slices_S32768x2_S32768x1_0_0 : S32768x2.Slices ![0, 0] S32768x1
  shapeCasts_S32768x1_S32768 : S32768x1.ShapeCasts S32768
  bcast_S_S32768 : S_.BroadcastsInDim S32768 (![] : Fin 0 → Fin S32768.rank)
  slices_S32768x2_S32768x1_0_1 : S32768x2.Slices ![0, 1] S32768x1
  bcast_S_S3600 : S_.BroadcastsInDim S3600 (![] : Fin 0 → Fin S3600.rank)
  bcast_S32768_S1x32768_1 : S32768.BroadcastsInDim S1x32768 (![1] : Fin 1 → Fin S1x32768.rank)
  bcast_S3600_S3600x1_0 : S3600.BroadcastsInDim S3600x1 (![0] : Fin 1 → Fin S3600x1.rank)
  bcast_S1x32768_S3600x32768_0_1 : S1x32768.BroadcastsInDim S3600x32768 (![0, 1] : Fin 2 → Fin S3600x32768.rank)
  bcast_S3600x1_S3600x32768_0_1 : S3600x1.BroadcastsInDim S3600x32768 (![0, 1] : Fin 2 → Fin S3600x32768.rank)

variable [Facts₀]

class Facts : Prop extends Facts₀ where

variable [Facts]
-- ==== Proof.Spec.lean ====
/-
  The mathematics of the tile-overlap mask, stated once, over no program.

  A point p of 32768 has a screen-clamped, integer-truncated bounding box [xmin p, xmax p] × [ymin p, ymax p]:
  the coordinate minus / plus the radius, clamped to [0, 1280] (x) or [0, 720] (y), then truncated to a 32-bit integer.
  A tile r of 3600 = 80 × 45 (column r / 45, row r − 45·(r / 45)) is the square [left r, right r] × [top r, bottom r] of side 16,
  cut at the screen's edge. The mask at (r, p) is the bit "the two boxes overlap with positive area in both axes":
      min(xmax p, right r) > max(xmin p, left r)  ∧  min(ymax p, bottom r) > max(ymin p, top r),
  all comparisons signed, on 32-bit words.

  `overlapBit` is that bit of eight words, `mask` the array of bits of eight vectors, `bound` one clamped and truncated
  box side of the point arrays, `tileCol` … `tileBottom` the tile vectors, and `result` the whole answer as one function of the
  two argument arrays and of the three clamp bounds (as scalars: a program spells them either as float words or as
  converted integers, and `clamp_lo`, `clamp_w`, `clamp_h` say the two spellings are one extended real each).
-/
import Idealize.ShloMosaic.PureOps.Ideal
import Idealize.ShloMosaic.Lib.ValueIdx

noncomputable section

namespace Cert.TileOverlap

open Idealize.ShloMosaic Idealize.ShloMosaic.ValueIdx

abbrev SPts : Shape := ⟨1, ![32768]⟩
abbrev STiles : Shape := ⟨1, ![3600]⟩
abbrev SMask : Shape := ⟨2, ![3600, 32768]⟩
abbrev SPos : Shape := ⟨2, ![32768, 2]⟩
abbrev SCol : Shape := ⟨2, ![32768, 1]⟩
abbrev SSc : Shape := ⟨0, ![]⟩

theorem slices0 : SPos.Slices ![0, 0] SCol := by decide
theorem slices1 : SPos.Slices ![0, 1] SCol := by decide
theorem colCasts : SCol.ShapeCasts SPts := by decide
theorem bcPts : SSc.BroadcastsInDim SPts (![] : Fin 0 → Fin SPts.rank) := by decide
theorem bcTiles : SSc.BroadcastsInDim STiles (![] : Fin 0 → Fin STiles.rank) := by decide

/-- The overlap bit of a point's box (xmin, ymin, xmax, ymax) and a tile's (left, top, right, bottom). -/
def overlapBit (xmin ymin xmax ymax left top right bottom : BitVec 32) : BitVec 1 :=
  IntOp.andi (IntOp.cmpi .sgt (IntOp.minsi xmax right) (IntOp.maxsi xmin left))
    (IntOp.cmpi .sgt (IntOp.minsi ymax bottom) (IntOp.maxsi ymin top))

/-- The mask: entry (r, p) is the overlap bit of point p's box and tile r's. -/
def mask (xmin ymin xmax ymax : IVec SPts 32) (left top right bottom : IVec STiles 32) : IVec SMask 1 :=
  fun i => overlapBit (xmin (ix1 (i 1 : Fin 32768))) (ymin (ix1 (i 1 : Fin 32768))) (xmax (ix1 (i 1 : Fin 32768))) (ymax (ix1 (i 1 : Fin 32768)))
    (left (ix1 (i 0 : Fin 3600))) (top (ix1 (i 0 : Fin 3600))) (right (ix1 (i 0 : Fin 3600))) (bottom (ix1 (i 0 : Fin 3600)))

/-- One side of the points' boxes: column `off` of the positions, combined with the radius by `op` (minus or plus),
    clamped below by `lo` and above by `hi`, truncated to a 32-bit integer. -/
def bound (off : Fin 2 → Nat) (hs : SPos.Slices off SCol)
    (op : FVec Ideal SPts .f32 → FVec Ideal SPts .f32 → FVec Ideal SPts .f32) (lo hi : FVec Ideal SSc .f32)
    (pos : FVec Ideal SPos .f32) (rad : FVec Ideal SPts .f32) : IVec SPts 32 :=
  fptosi 32 (minimumf (broadcastInDim SPts ![] bcPts hi)
    (maximumf (broadcastInDim SPts ![] bcPts lo) (op (shapeCast SPts (extractStridedSlice SCol off pos hs) colCasts) rad)))

/-- The tile index 0 … 3599. -/
def tileIx : IVec STiles 32 := iotaInDim STiles 32 0

/-- A 32-bit scalar constant spread over the tiles. -/
def tc (b : BitVec 32) : IVec STiles 32 := broadcastInDim STiles ![] bcTiles (constantI SSc 32 b)

/-- The tile's column, r / 45 rounded down: the truncated quotient, less one where the signs of dividend and divisor
    differ and the remainder is not zero. -/
def tileCol : IVec STiles 32 :=
  select
    (andi (cmpi .ne (signi tileIx) (broadcastInDim STiles ![] bcTiles (signi (id (constantI SSc 32 45#32)))))
      (cmpi .ne (Host.remsi tileIx (broadcastInDim STiles ![] bcTiles (id (constantI SSc 32 45#32)))) (tc 0#32)))
    (subi (Host.divsi tileIx (broadcastInDim STiles ![] bcTiles (id (constantI SSc 32 45#32)))) (tc 1#32))
    (Host.divsi tileIx (broadcastInDim STiles ![] bcTiles (id (constantI SSc 32 45#32))))

/-- The tile's row, r − 45 · (r / 45). -/
def tileRow : IVec STiles 32 := subi tileIx (muli tileCol (tc 45#32))

def tileLeft : IVec STiles 32 := muli tileCol (tc 16#32)
def tileTop : IVec STiles 32 := muli tileRow (tc 16#32)
def tileRight : IVec STiles 32 := minsi (muli (addi tileCol (tc 1#32)) (tc 16#32)) (tc 1280#32)
def tileBottom : IVec STiles 32 := minsi (muli (addi tileRow (tc 1#32)) (tc 16#32)) (tc 720#32)

/-- The whole answer, of the positions, the radii and the three clamp bounds. -/
def result (lo w h : FVec Ideal SSc .f32) (pos : FVec Ideal SPos .f32) (rad : FVec Ideal SPts .f32) : IVec SMask 1 :=
  mask (bound ![0, 0] slices0 subf lo w pos rad) (bound ![0, 1] slices1 subf lo h pos rad)
    (bound ![0, 0] slices0 addf lo w pos rad) (bound ![0, 1] slices1 addf lo h pos rad)
    tileLeft tileTop tileRight tileBottom

/-! ## The clamp bounds: a float word and the converted integer are one extended real -/

theorem clamp_lo : (constant (F := Ideal) SSc .f32 0x00000000#32) = sitofp .f32 (constantI SSc 32 0#32) := by
  funext i
  show Ideal.ofBits .f32 0x00000000#32 = (((0#32 : BitVec 32).toInt : ℝ) : EReal)
  simp [Ideal.ofBits, Ideal.ieee]

theorem clamp_w : (constant (F := Ideal) SSc .f32 0x44A00000#32) = sitofp .f32 (constantI SSc 32 1280#32) := by
  funext i
  show Ideal.ofBits .f32 0x44A00000#32 = (((1280#32 : BitVec 32).toInt : ℝ) : EReal)
  have h : (1280#32 : BitVec 32).toInt = 1280 := by decide
  rw [h]
  simp [Ideal.ofBits, Ideal.ieee, -EReal.coe_mul]; norm_num

theorem clamp_h : (constant (F := Ideal) SSc .f32 0x44340000#32) = sitofp .f32 (constantI SSc 32 720#32) := by
  funext i
  show Ideal.ofBits .f32 0x44340000#32 = (((720#32 : BitVec 32).toInt : ℝ) : EReal)
  have h : (720#32 : BitVec 32).toInt = 720 := by decide
  rw [h]
  simp [Ideal.ofBits, Ideal.ieee, -EReal.coe_mul]; norm_num

end Cert.TileOverlap

end
-- ==== Proof.KernelBlock.lean ====
/-
  One entry of a block the kernel body writes.

  The body loads four rows [1, 32768] (the points' xmin, ymin, xmax, ymax) and four columns [16, 1] (sixteen tiles' left, top,
  right, bottom), spreads each over [16, 32768], and stores the overlap bit widened to a 32-bit word. A row spread over
  the block reads, at (r, p), the row at (0, p); a column reads the column at (r, 0); everything else in the body is
  pointwise. So entry (r, p) of the stored block is the overlap bit of point p's four words and tile r's four words.
-/
import proofs.«141010_j59493886984836_2_alg».proof.Proof.Gen.KernelIdeal.Skeleton
import proofs.«141010_j59493886984836_2_alg».proof.Proof.Spec
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.TileOverlap

variable {F : FTy → Type} [FloatOps F]

/-- A row spread down the block: entry (r, p) is the row's entry (0, p). -/
theorem spread_row (x : IVec S1x32768 32) (r : Fin 16) (p : Fin 32768) :
    broadcastTo S16x32768 x broadcasts_S1x32768_S16x32768 (ix2 r p) = x (ix2 0 p) :=
  broadcastTo_apply x _ (ix2 r p) (ix2 0 p) (fun a => by match a with | ⟨0, _⟩ => rfl | ⟨1, _⟩ => rfl)

/-- A column spread across the block: entry (r, p) is the column's entry (r, 0). -/
theorem spread_col (x : IVec S16x1 32) (r : Fin 16) (p : Fin 32768) :
    broadcastTo S16x32768 x broadcasts_S16x1_S16x32768 (ix2 r p) = x (ix2 r 0) :=
  broadcastTo_apply x _ (ix2 r p) (ix2 r 0) (fun a => by match a with | ⟨0, _⟩ => rfl | ⟨1, _⟩ => rfl)

/-- The stored word at (r, p): the overlap bit of the rows at (0, p) and the columns at (r, 0), widened. -/
theorem pay_entry (x0 x1 x2 x3 : Vec F S1x32768 .i32) (x4 x5 x6 x7 : Vec F S16x1 .i32) (r : Fin 16) (p : Fin 32768) :
    k0_pay1 x0 x1 x2 x3 x4 x5 x6 x7 (ix2 r p)
      = (overlapBit (x0 (ix2 0 p)) (x1 (ix2 0 p)) (x2 (ix2 0 p)) (x3 (ix2 0 p))
          (x4 (ix2 r 0)) (x5 (ix2 r 0)) (x6 (ix2 r 0)) (x7 (ix2 r 0))).setWidth 32 := by
  unfold k0_pay1
  simp only [shapeCast_self]
  show (IntOp.andi
      (IntOp.cmpi .sgt
        (IntOp.minsi (broadcastTo S16x32768 (x2 : IVec S1x32768 32) broadcasts_S1x32768_S16x32768 (ix2 r p)) (broadcastTo S16x32768 (x6 : IVec S16x1 32) broadcasts_S16x1_S16x32768 (ix2 r p)))
        (IntOp.maxsi (broadcastTo S16x32768 (x0 : IVec S1x32768 32) broadcasts_S1x32768_S16x32768 (ix2 r p)) (broadcastTo S16x32768 (x4 : IVec S16x1 32) broadcasts_S16x1_S16x32768 (ix2 r p))))
      (IntOp.cmpi .sgt
        (IntOp.minsi (broadcastTo S16x32768 (x3 : IVec S1x32768 32) broadcasts_S1x32768_S16x32768 (ix2 r p)) (broadcastTo S16x32768 (x7 : IVec S16x1 32) broadcasts_S16x1_S16x32768 (ix2 r p)))
        (IntOp.maxsi (broadcastTo S16x32768 (x1 : IVec S1x32768 32) broadcasts_S1x32768_S16x32768 (ix2 r p)) (broadcastTo S16x32768 (x5 : IVec S16x1 32) broadcasts_S16x1_S16x32768 (ix2 r p))))).setWidth 32 = _
  simp only [spread_row, spread_col]
  rfl

/-- The same at any index of the block. -/
theorem pay_at (x0 x1 x2 x3 : Vec F S1x32768 .i32) (x4 x5 x6 x7 : Vec F S16x1 .i32) (j : S16x32768.Idx) :
    k0_pay1 x0 x1 x2 x3 x4 x5 x6 x7 j
      = (overlapBit (x0 (ix2 0 (j 1))) (x1 (ix2 0 (j 1))) (x2 (ix2 0 (j 1))) (x3 (ix2 0 (j 1)))
          (x4 (ix2 (j 0) 0)) (x5 (ix2 (j 0) 0)) (x6 (ix2 (j 0) 0)) (x7 (ix2 (j 0) 0))).setWidth 32 := by
  obtain ⟨r, p, rfl⟩ : ∃ (r : Fin 16) (p : Fin 32768), j = ix2 r p := ⟨j 0, j 1, eq_ix2 j⟩
  exact pay_entry x0 x1 x2 x3 x4 x5 x6 x7 r p

end Cert.KernelIdeal.Block

end
-- ==== Proof.KernelArray.lean ====
/-
  From the blocks the grid points write to the whole array.

  The grid has 225 points; point t handles tiles 16t … 16t + 15. Its four row windows are the whole point arrays at every
  point (block index (0, 0), block = array), its four column windows are rows 16t … 16t + 15 of the tile arrays, and its
  output block is rows 16t … 16t + 15 of the [3600, 32768] result. So what point t writes back is block t of ONE function
  of the eight arrays the region finds — `blockFn`: at (r, p) the overlap bit of the point arrays at (0, p) and the tile
  arrays at (r, 0), widened to a word — and since the 225 blocks tile the array, the array ends holding that function.
  The arrays are taken as variables equal to what the region finds, so that nothing here opens the host operations.
-/
import proofs.«141010_j59493886984836_2_alg».proof.Proof.Gen.KernelIdeal.Frame
import proofs.«141010_j59493886984836_2_alg».proof.Proof.KernelBlock
import proofs.«141010_j59493886984836_2_alg».proof.Proof.Spec
import Idealize.ShloMosaic.Lib.Pipeline.Value
import Idealize.ShloMosaic.Lib.ValueIdx

set_option maxRecDepth 16384

noncomputable section

namespace Cert.KernelIdeal.Array

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.TileOverlap

variable (m : (ℓ : Loc nD τ sig) → Buf (Elt Ideal) ℓ)

theorem zero_offsets : (![0, 0] : Fin 2 → Nat) = fun _ => 0 := funext fun a => by fin_cases a <;> rfl

/-- The result array as one function of the eight arrays the region finds: at (r, p) the widened overlap bit of the
    point rows at (0, p) and the tile columns at (r, 0). -/
def blockFn (A0 A1 A2 A3 : S1x32768.Idx → BitVec 32) (A4 A5 A6 A7 : S3600x1.Idx → BitVec 32) : S3600x32768.Idx → BitVec 32 :=
  fun i => (overlapBit (A0 (ix2 0 (i 1 : Fin 32768))) (A1 (ix2 0 (i 1 : Fin 32768))) (A2 (ix2 0 (i 1 : Fin 32768))) (A3 (ix2 0 (i 1 : Fin 32768)))
    (A4 (ix2 (i 0 : Fin 3600) 0)) (A5 (ix2 (i 0 : Fin 3600) 0)) (A6 (ix2 (i 0 : Fin 3600) 0)) (A7 (ix2 (i 0 : Fin 3600) 0))).setWidth 32

/-! ## The printed index maps, decided once over the grid -/

theorem index_rows0 : ∀ t : Fin cfg0.N, win0_0.index t (0 : Fin 2) = 0 ∧ win0_0.index t (1 : Fin 2) = 0 :=
  (by decide +kernel : ∀ t : Fin grid0.N, _)
theorem index_rows1 : ∀ t : Fin cfg0.N, win0_1.index t (0 : Fin 2) = 0 ∧ win0_1.index t (1 : Fin 2) = 0 :=
  (by decide +kernel : ∀ t : Fin grid0.N, _)
theorem index_rows2 : ∀ t : Fin cfg0.N, win0_2.index t (0 : Fin 2) = 0 ∧ win0_2.index t (1 : Fin 2) = 0 :=
  (by decide +kernel : ∀ t : Fin grid0.N, _)
theorem index_rows3 : ∀ t : Fin cfg0.N, win0_3.index t (0 : Fin 2) = 0 ∧ win0_3.index t (1 : Fin 2) = 0 :=
  (by decide +kernel : ∀ t : Fin grid0.N, _)
theorem index_cols4 : ∀ t : Fin cfg0.N, win0_4.index t (0 : Fin 2) = win0_8.index t (0 : Fin 2) ∧ win0_4.index t (1 : Fin 2) = 0 :=
  (by decide +kernel : ∀ t : Fin grid0.N, _)
theorem index_cols5 : ∀ t : Fin cfg0.N, win0_5.index t (0 : Fin 2) = win0_8.index t (0 : Fin 2) ∧ win0_5.index t (1 : Fin 2) = 0 :=
  (by decide +kernel : ∀ t : Fin grid0.N, _)
theorem index_cols6 : ∀ t : Fin cfg0.N, win0_6.index t (0 : Fin 2) = win0_8.index t (0 : Fin 2) ∧ win0_6.index t (1 : Fin 2) = 0 :=
  (by decide +kernel : ∀ t : Fin grid0.N, _)
theorem index_cols7 : ∀ t : Fin cfg0.N, win0_7.index t (0 : Fin 2) = win0_8.index t (0 : Fin 2) ∧ win0_7.index t (1 : Fin 2) = 0 :=
  (by decide +kernel : ∀ t : Fin grid0.N, _)
theorem index_out : ∀ t : Fin cfg0.N, win0_8.index t (1 : Fin 2) = 0 ∧ win0_8.index t (0 : Fin 2) < 225 :=
  (by decide +kernel : ∀ t : Fin grid0.N, _)
/-- Every one of the 225 row blocks is some point's. -/
theorem index_onto : ∀ q : Fin 225, ∃ t : Fin cfg0.N, win0_8.index t = ![q.val, 0] :=
  (by decide +kernel : ∀ q : Fin 225, ∃ t : Fin grid0.N, win0_8.index t = ![q.val, 0])

/-! ## The input blocks, read off the arrays -/

theorem row_block0 (c : Dev nD) (t : Fin cfg0.N) (A : S1x32768.Idx → BitVec 32)
    (hA : (V m c main_v37 : S1x32768.Idx → BitVec 32) = A) (x k : S1x32768.Idx) (hk : (k 1).val = (x 1).val) :
    (iblk m c 0 t : Vec Ideal S1x32768 .i32) x = A k := by
  subst hA
  obtain ⟨e0, e1⟩ := index_rows0 t
  unfold iblk
  rw [View.read_apply]
  show V m c main_v37 _ = V m c main_v37 _
  congr 1
  funext a
  apply Fin.ext
  have hx : (x 0).val < 1 := (x 0).isLt
  have hk0 : (k 0).val < 1 := (k 0).isLt
  match a with
  | ⟨0, _⟩ => show win0_0.index t 0 * 1 + 1 * (x 0).val = (k 0).val; rw [e0]; omega
  | ⟨1, _⟩ => show win0_0.index t 1 * 32768 + 1 * (x 1).val = (k 1).val; rw [e1, hk]; omega

theorem row_block1 (c : Dev nD) (t : Fin cfg0.N) (A : S1x32768.Idx → BitVec 32)
    (hA : (V m c main_v38 : S1x32768.Idx → BitVec 32) = A) (x k : S1x32768.Idx) (hk : (k 1).val = (x 1).val) :
    (iblk m c 1 t : Vec Ideal S1x32768 .i32) x = A k := by
  subst hA
  obtain ⟨e0, e1⟩ := index_rows1 t
  unfold iblk
  rw [View.read_apply]
  show V m c main_v38 _ = V m c main_v38 _
  congr 1
  funext a
  apply Fin.ext
  have hx : (x 0).val < 1 := (x 0).isLt
  have hk0 : (k 0).val < 1 := (k 0).isLt
  match a with
  | ⟨0, _⟩ => show win0_1.index t 0 * 1 + 1 * (x 0).val = (k 0).val; rw [e0]; omega
  | ⟨1, _⟩ => show win0_1.index t 1 * 32768 + 1 * (x 1).val = (k 1).val; rw [e1, hk]; omega

theorem row_block2 (c : Dev nD) (t : Fin cfg0.N) (A : S1x32768.Idx → BitVec 32)
    (hA : (V m c main_v39 : S1x32768.Idx → BitVec 32) = A) (x k : S1x32768.Idx) (hk : (k 1).val = (x 1).val) :
    (iblk m c 2 t : Vec Ideal S1x32768 .i32) x = A k := by
  subst hA
  obtain ⟨e0, e1⟩ := index_rows2 t
  unfold iblk
  rw [View.read_apply]
  show V m c main_v39 _ = V m c main_v39 _
  congr 1
  funext a
  apply Fin.ext
  have hx : (x 0).val < 1 := (x 0).isLt
  have hk0 : (k 0).val < 1 := (k 0).isLt
  match a with
  | ⟨0, _⟩ => show win0_2.index t 0 * 1 + 1 * (x 0).val = (k 0).val; rw [e0]; omega
  | ⟨1, _⟩ => show win0_2.index t 1 * 32768 + 1 * (x 1).val = (k 1).val; rw [e1, hk]; omega

theorem row_block3 (c : Dev nD) (t : Fin cfg0.N) (A : S1x32768.Idx → BitVec 32)
    (hA : (V m c main_v40 : S1x32768.Idx → BitVec 32) = A) (x k : S1x32768.Idx) (hk : (k 1).val = (x 1).val) :
    (iblk m c 3 t : Vec Ideal S1x32768 .i32) x = A k := by
  subst hA
  obtain ⟨e0, e1⟩ := index_rows3 t
  unfold iblk
  rw [View.read_apply]
  show V m c main_v40 _ = V m c main_v40 _
  congr 1
  funext a
  apply Fin.ext
  have hx : (x 0).val < 1 := (x 0).isLt
  have hk0 : (k 0).val < 1 := (k 0).isLt
  match a with
  | ⟨0, _⟩ => show win0_3.index t 0 * 1 + 1 * (x 0).val = (k 0).val; rw [e0]; omega
  | ⟨1, _⟩ => show win0_3.index t 1 * 32768 + 1 * (x 1).val = (k 1).val; rw [e1, hk]; omega

theorem col_block4 (c : Dev nD) (t : Fin cfg0.N) (A : S3600x1.Idx → BitVec 32)
    (hA : (V m c main_v41 : S3600x1.Idx → BitVec 32) = A) (x : S16x1.Idx) (k : S3600x1.Idx)
    (hk : (k 0).val = win0_8.index t 0 * 16 + (x 0).val) :
    (iblk m c 4 t : Vec Ideal S16x1 .i32) x = A k := by
  subst hA
  obtain ⟨e0, e1⟩ := index_cols4 t
  unfold iblk
  rw [View.read_apply]
  show V m c main_v41 _ = V m c main_v41 _
  congr 1
  funext a
  apply Fin.ext
  have hx : (x 1).val < 1 := (x 1).isLt
  have hk1 : (k 1).val < 1 := (k 1).isLt
  match a with
  | ⟨0, _⟩ => show win0_4.index t 0 * 16 + 1 * (x 0).val = (k 0).val; rw [e0, hk]; omega
  | ⟨1, _⟩ => show win0_4.index t 1 * 1 + 1 * (x 1).val = (k 1).val; rw [e1]; omega

theorem col_block5 (c : Dev nD) (t : Fin cfg0.N) (A : S3600x1.Idx → BitVec 32)
    (hA : (V m c main_v42 : S3600x1.Idx → BitVec 32) = A) (x : S16x1.Idx) (k : S3600x1.Idx)
    (hk : (k 0).val = win0_8.index t 0 * 16 + (x 0).val) :
    (iblk m c 5 t : Vec Ideal S16x1 .i32) x = A k := by
  subst hA
  obtain ⟨e0, e1⟩ := index_cols5 t
  unfold iblk
  rw [View.read_apply]
  show V m c main_v42 _ = V m c main_v42 _
  congr 1
  funext a
  apply Fin.ext
  have hx : (x 1).val < 1 := (x 1).isLt
  have hk1 : (k 1).val < 1 := (k 1).isLt
  match a with
  | ⟨0, _⟩ => show win0_5.index t 0 * 16 + 1 * (x 0).val = (k 0).val; rw [e0, hk]; omega
  | ⟨1, _⟩ => show win0_5.index t 1 * 1 + 1 * (x 1).val = (k 1).val; rw [e1]; omega

theorem col_block6 (c : Dev nD) (t : Fin cfg0.N) (A : S3600x1.Idx → BitVec 32)
    (hA : (V m c main_v43 : S3600x1.Idx → BitVec 32) = A) (x : S16x1.Idx) (k : S3600x1.Idx)
    (hk : (k 0).val = win0_8.index t 0 * 16 + (x 0).val) :
    (iblk m c 6 t : Vec Ideal S16x1 .i32) x = A k := by
  subst hA
  obtain ⟨e0, e1⟩ := index_cols6 t
  unfold iblk
  rw [View.read_apply]
  show V m c main_v43 _ = V m c main_v43 _
  congr 1
  funext a
  apply Fin.ext
  have hx : (x 1).val < 1 := (x 1).isLt
  have hk1 : (k 1).val < 1 := (k 1).isLt
  match a with
  | ⟨0, _⟩ => show win0_6.index t 0 * 16 + 1 * (x 0).val = (k 0).val; rw [e0, hk]; omega
  | ⟨1, _⟩ => show win0_6.index t 1 * 1 + 1 * (x 1).val = (k 1).val; rw [e1]; omega

theorem col_block7 (c : Dev nD) (t : Fin cfg0.N) (A : S3600x1.Idx → BitVec 32)
    (hA : (V m c main_v44 : S3600x1.Idx → BitVec 32) = A) (x : S16x1.Idx) (k : S3600x1.Idx)
    (hk : (k 0).val = win0_8.index t 0 * 16 + (x 0).val) :
    (iblk m c 7 t : Vec Ideal S16x1 .i32) x = A k := by
  subst hA
  obtain ⟨e0, e1⟩ := index_cols7 t
  unfold iblk
  rw [View.read_apply]
  show V m c main_v44 _ = V m c main_v44 _
  congr 1
  funext a
  apply Fin.ext
  have hx : (x 1).val < 1 := (x 1).isLt
  have hk1 : (k 1).val < 1 := (k 1).isLt
  match a with
  | ⟨0, _⟩ => show win0_7.index t 0 * 16 + 1 * (x 0).val = (k 0).val; rw [e0, hk]; omega
  | ⟨1, _⟩ => show win0_7.index t 1 * 1 + 1 * (x 1).val = (k 1).val; rw [e1]; omega

/-! ## What a point writes back -/

theorem overlapBit_congr {a b c d e f g h a' b' c' d' e' f' g' h' : BitVec 32} (ha : a = a') (hb : b = b') (hc : c = c') (hd : d = d')
    (he : e = e') (hf : f = f') (hg : g = g') (hh : h = h') :
    (overlapBit a b c d e f g h).setWidth 32 = (overlapBit a' b' c' d' e' f' g' h').setWidth 32 := by
  rw [ha, hb, hc, hd, he, hf, hg, hh]

/-- Point `t` writes back block `t` of `blockFn` of the arrays. -/
theorem flushed_eq (c : Dev nD) (t : Fin cfg0.N) (A0 A1 A2 A3 : S1x32768.Idx → BitVec 32) (A4 A5 A6 A7 : S3600x1.Idx → BitVec 32)
    (h0 : (V m c main_v37 : S1x32768.Idx → BitVec 32) = A0) (h1 : (V m c main_v38 : S1x32768.Idx → BitVec 32) = A1)
    (h2 : (V m c main_v39 : S1x32768.Idx → BitVec 32) = A2) (h3 : (V m c main_v40 : S1x32768.Idx → BitVec 32) = A3)
    (h4 : (V m c main_v41 : S3600x1.Idx → BitVec 32) = A4) (h5 : (V m c main_v42 : S3600x1.Idx → BitVec 32) = A5)
    (h6 : (V m c main_v43 : S3600x1.Idx → BitVec 32) = A6) (h7 : (V m c main_v44 : S3600x1.Idx → BitVec 32) = A7) :
    (dats m 0 c).flushed 8 t = ((cfg0.win 8).blk t).view.read (Elt Ideal) (blockFn A0 A1 A2 A3 A4 A5 A6 A7) := by
  show (cfg0.win 8).cut (grid0.coords t) ((dats m 0 c).after 8 t) = _
  rw [after0_8]
  unfold out0_8
  rw [View.canon_unit_zero zero_offsets]
  simp only [View.ld_unit_zero (S := S1x32768) zero_offsets, View.ld_unit_zero (S := S16x1) zero_offsets]
  obtain ⟨o1, _⟩ := index_out t
  funext j
  refine (Block.pay_at (iblk m c 0 t) (iblk m c 1 t) (iblk m c 2 t) (iblk m c 3 t) (iblk m c 4 t) (iblk m c 5 t) (iblk m c 6 t) (iblk m c 7 t) ((cfg0.win 8).xinj (grid0.coords t) j)).trans ?_
  rw [View.read_apply]
  have e0 : ((((cfg0.win 8).blk t).view.emb j) 0).val = win0_8.index t 0 * 16 + (j 0).val := by
    show win0_8.index t 0 * 16 + 1 * (j 0).val = _; omega
  have e1 : ((((cfg0.win 8).blk t).view.emb j) 1).val = (j 1).val := by
    show win0_8.index t 1 * 32768 + 1 * (j 1).val = _; rw [o1]; omega
  exact overlapBit_congr
    (row_block0 m c t A0 h0 _ _ e1) (row_block1 m c t A1 h1 _ _ e1) (row_block2 m c t A2 h2 _ _ e1) (row_block3 m c t A3 h3 _ _ e1)
    (col_block4 m c t A4 h4 _ _ e0) (col_block5 m c t A5 h5 _ _ e0) (col_block6 m c t A6 h6 _ _ e0) (col_block7 m c t A7 h7 _ _ e0)

/-! ## The blocks tile the array -/

theorem mem_block (t : Fin cfg0.N) (i : S3600x32768.Idx) :
    i ∈ ((cfg0.win 8).blk t).view.set ↔ ∀ a : Fin 2, win0_8.index t a * S16x32768.size a ≤ (i a).val ∧ (i a).val < win0_8.index t a * S16x32768.size a + S16x32768.size a := by
  show i ∈ ((View.whole main_v45).slice (win0_8.rect t)).set ↔ _
  rw [View.set_slice_whole, Rect.mem_set_unit]
  exact Iff.rfl

/-- Row r of the result is in the block of the point whose block index is r / 16. -/
theorem cover (i : S3600x32768.Idx) : ∃ t : Fin cfg0.N, (cfg0.win 8).flush t = true ∧ i ∈ ((cfg0.win 8).blk t).view.set := by
  have hi0 : (i 0).val < 3600 := (i 0).isLt
  have hi1 : (i 1).val < 32768 := (i 1).isLt
  obtain ⟨t, ht⟩ := index_onto ⟨(i 0).val / 16, by omega⟩
  have q0 : win0_8.index t (0 : Fin 2) = (i 0).val / 16 := congrFun ht 0
  have q1 : win0_8.index t (1 : Fin 2) = 0 := congrFun ht 1
  refine ⟨t, flush0_8 t, ?_⟩
  rw [mem_block]
  intro a
  match a with
  | ⟨0, _⟩ => show win0_8.index t (0 : Fin 2) * 16 ≤ (i 0).val ∧ (i 0).val < win0_8.index t (0 : Fin 2) * 16 + 16; omega
  | ⟨1, _⟩ => show win0_8.index t (1 : Fin 2) * 32768 ≤ (i 1).val ∧ (i 1).val < win0_8.index t (1 : Fin 2) * 32768 + 32768; omega

/-- The result array after the region: `blockFn` of the arrays the region found. -/
theorem final (c : Dev nD) (A0 A1 A2 A3 : S1x32768.Idx → BitVec 32) (A4 A5 A6 A7 : S3600x1.Idx → BitVec 32)
    (h0 : (V m c main_v37 : S1x32768.Idx → BitVec 32) = A0) (h1 : (V m c main_v38 : S1x32768.Idx → BitVec 32) = A1)
    (h2 : (V m c main_v39 : S1x32768.Idx → BitVec 32) = A2) (h3 : (V m c main_v40 : S1x32768.Idx → BitVec 32) = A3)
    (h4 : (V m c main_v41 : S3600x1.Idx → BitVec 32) = A4) (h5 : (V m c main_v42 : S3600x1.Idx → BitVec 32) = A5)
    (h6 : (V m c main_v43 : S3600x1.Idx → BitVec 32) = A6) (h7 : (V m c main_v44 : S3600x1.Idx → BitVec 32) = A7) :
    (dats m 0 c).arrAt 8 cfg0.N = blockFn A0 A1 A2 A3 A4 A5 A6 A7 :=
  (dats m 0 c).arrAt_eq_of_cover 8 (blockFn A0 A1 A2 A3 A4 A5 A6 A7) (fun t _ => flushed_eq m c t A0 A1 A2 A3 A4 A5 A6 A7 h0 h1 h2 h3 h4 h5 h6 h7) cover

end Cert.KernelIdeal.Array

end
-- ==== Proof.KernelPoints.lean ====
/-
  The four point arrays the region finds, each a row [1, 32768]: the host operations before the region slice a coordinate
  column out of the positions, subtract or add the radius, clamp to the screen, truncate to a 32-bit integer and lay the
  result out as one row. Each is the specification's `bound` of the two argument arrays, re-laid.
-/
import proofs.«141010_j59493886984836_2_alg».proof.Proof.Gen.KernelIdeal.Frame
import proofs.«141010_j59493886984836_2_alg».proof.Proof.Spec
import Idealize.ShloMosaic.Lib.StableHlo.Run

set_option maxRecDepth 16384
-- one array at a time: each is a fold over the host operations before the region
set_option Elab.async false

noncomputable section

namespace Cert.KernelIdeal.Points

open Cert.KernelIdeal Cert.KernelIdeal.Gen Idealize.ShloMosaic Idealize.ShloMosaic.TcCoe Idealize.SL.Sem Idealize.ShloMosaic.StableHlo
open Cert.TileOverlap

variable (m : (ℓ : Loc nD τ sig) → Buf (Elt Ideal) ℓ)

/-- xmin: column 0 minus the radius, clamped to [0, 1280]. -/
theorem xmin_row (c : Dev nD) : (Gen.V m c main_v37 : S1x32768.Idx → BitVec 32)
    = shapeCast S1x32768 (bound ![0, 0] slices0 subf (constant SSc .f32 0x00000000#32) (constant SSc .f32 0x44A00000#32) (m ((c.tc : Thread nD τ).loc main_arg0)) (m ((c.tc : Thread nD τ).loc main_arg1))) shapeCasts_S32768_S1x32768 := by
  dsimp only [Gen.V, Gen.V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

/-- ymin: column 1 minus the radius, clamped to [0, 720]. -/
theorem ymin_row (c : Dev nD) : (Gen.V m c main_v38 : S1x32768.Idx → BitVec 32)
    = shapeCast S1x32768 (bound ![0, 1] slices1 subf (constant SSc .f32 0x00000000#32) (constant SSc .f32 0x44340000#32) (m ((c.tc : Thread nD τ).loc main_arg0)) (m ((c.tc : Thread nD τ).loc main_arg1))) shapeCasts_S32768_S1x32768 := by
  dsimp only [Gen.V, Gen.V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

/-- xmax: column 0 plus the radius, clamped to [0, 1280]. -/
theorem xmax_row (c : Dev nD) : (Gen.V m c main_v39 : S1x32768.Idx → BitVec 32)
    = shapeCast S1x32768 (bound ![0, 0] slices0 addf (constant SSc .f32 0x00000000#32) (constant SSc .f32 0x44A00000#32) (m ((c.tc : Thread nD τ).loc main_arg0)) (m ((c.tc : Thread nD τ).loc main_arg1))) shapeCasts_S32768_S1x32768 := by
  dsimp only [Gen.V, Gen.V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

/-- ymax: column 1 plus the radius, clamped to [0, 720]. -/
theorem ymax_row (c : Dev nD) : (Gen.V m c main_v40 : S1x32768.Idx → BitVec 32)
    = shapeCast S1x32768 (bound ![0, 1] slices1 addf (constant SSc .f32 0x00000000#32) (constant SSc .f32 0x44340000#32) (m ((c.tc : Thread nD τ).loc main_arg0)) (m ((c.tc : Thread nD τ).loc main_arg1))) shapeCasts_S32768_S1x32768 := by
  dsimp only [Gen.V, Gen.V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

end Cert.KernelIdeal.Points

end
-- ==== Proof.KernelTiles.lean ====
/-
  The four tile arrays the region finds, each a column [3600, 1]: the host operations before the region compute, from the
  tile index alone, the tile's column and row and from them its left, top, right and bottom edges, and lay each out as
  one column. Each is the specification's tile vector, re-laid.
-/
import proofs.«141010_j59493886984836_2_alg».proof.Proof.Gen.KernelIdeal.Frame
import proofs.«141010_j59493886984836_2_alg».proof.Proof.Spec
import Idealize.ShloMosaic.Lib.StableHlo.Run

set_option maxRecDepth 16384
-- one array at a time: each is a fold over the host operations before the region
set_option Elab.async false

noncomputable section

namespace Cert.KernelIdeal.Tiles

open Cert.KernelIdeal Cert.KernelIdeal.Gen Idealize.ShloMosaic Idealize.ShloMosaic.TcCoe Idealize.SL.Sem Idealize.ShloMosaic.StableHlo
open Cert.TileOverlap

variable (m : (ℓ : Loc nD τ sig) → Buf (Elt Ideal) ℓ)

theorem left_col (c : Dev nD) : (Gen.V m c main_v41 : S3600x1.Idx → BitVec 32) = shapeCast S3600x1 tileLeft shapeCasts_S3600_S3600x1 := by
  dsimp only [Gen.V, Gen.V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

theorem top_col (c : Dev nD) : (Gen.V m c main_v42 : S3600x1.Idx → BitVec 32) = shapeCast S3600x1 tileTop shapeCasts_S3600_S3600x1 := by
  dsimp only [Gen.V, Gen.V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

theorem right_col (c : Dev nD) : (Gen.V m c main_v43 : S3600x1.Idx → BitVec 32) = shapeCast S3600x1 tileRight shapeCasts_S3600_S3600x1 := by
  dsimp only [Gen.V, Gen.V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

theorem bottom_col (c : Dev nD) : (Gen.V m c main_v44 : S3600x1.Idx → BitVec 32) = shapeCast S3600x1 tileBottom shapeCasts_S3600_S3600x1 := by
  dsimp only [Gen.V, Gen.V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

end Cert.KernelIdeal.Tiles

end
-- ==== Proof.KernelValue.lean ====
/-
  The kernel program's result.

  After the region the host compares the [3600, 32768] word array with zero, entry by entry, and that bit array is the
  result. The region left, at (r, p), the overlap bit widened to a word (a one-bit value widened to 32 bits is nonzero
  exactly when the bit is one), of the point arrays at (0, p) and the tile arrays at (r, 0); the point arrays are the
  clamped, truncated box sides laid out as rows [1, 32768], the tile arrays the tile edges laid out as columns [3600, 1], so
  reading a row at (0, p) is reading the vector at p, and a column at (r, 0) the vector at r. Hence the result is the
  specification's `result` of the positions and the radii, with the clamp bounds spelled as float words.
-/
import proofs.«141010_j59493886984836_2_alg».proof.Proof.Gen.KernelIdeal.Frame
import proofs.«141010_j59493886984836_2_alg».proof.Proof.KernelArray
import proofs.«141010_j59493886984836_2_alg».proof.Proof.KernelPoints
import proofs.«141010_j59493886984836_2_alg».proof.Proof.KernelTiles
import proofs.«141010_j59493886984836_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.MaskValue

open Cert.KernelIdeal Cert.KernelIdeal.Gen Idealize.ShloMosaic Idealize.ShloMosaic.TcCoe Idealize.SL.Sem Idealize.ShloMosaic.StableHlo Idealize.ShloMosaic.ValueIdx
open Cert.TileOverlap

variable (m : (ℓ : Loc nD τ sig) → Buf (Elt Ideal) ℓ) (ρ : Dev nD → PrngReg)

/-- A vector laid out as one row, read at (0, p), is the vector at p. -/
theorem row_at (x : IVec S32768 32) (p : Fin 32768) :
    shapeCast S1x32768 x shapeCasts_S32768_S1x32768 (ix2 0 p) = x (ix1 p) :=
  shapeCast_apply x _ (ix2 0 p) (ix1 p) (by
    rw [Shape.rowMajor_val_one, Shape.rowMajor_val_two]
    show p.val = (0 : Fin 1).val * 32768 + p.val
    simp)

/-- A vector laid out as one column, read at (r, 0), is the vector at r. -/
theorem col_at (x : IVec S3600 32) (r : Fin 3600) :
    shapeCast S3600x1 x shapeCasts_S3600_S3600x1 (ix2 r 0) = x (ix1 r) :=
  shapeCast_apply x _ (ix2 r 0) (ix1 r) (by
    rw [Shape.rowMajor_val_one, Shape.rowMajor_val_two]
    show r.val = r.val * 1 + (0 : Fin 1).val
    simp)

/-- A bit widened to a word differs from zero exactly when it is one. -/
theorem widened_ne_zero : ∀ b : BitVec 1, IntOp.cmpi .ne (b.setWidth 32) 0#32 = b := by decide

/-- The region's array of the re-laid vectors is, entry by entry, the mask's bit widened. -/
theorem blockFn_relaid (xmin ymin xmax ymax : IVec S32768 32) (left top right bottom : IVec S3600 32) (i : S3600x32768.Idx) :
    Array.blockFn (shapeCast S1x32768 xmin shapeCasts_S32768_S1x32768) (shapeCast S1x32768 ymin shapeCasts_S32768_S1x32768)
      (shapeCast S1x32768 xmax shapeCasts_S32768_S1x32768) (shapeCast S1x32768 ymax shapeCasts_S32768_S1x32768)
      (shapeCast S3600x1 left shapeCasts_S3600_S3600x1) (shapeCast S3600x1 top shapeCasts_S3600_S3600x1)
      (shapeCast S3600x1 right shapeCasts_S3600_S3600x1) (shapeCast S3600x1 bottom shapeCasts_S3600_S3600x1) i
      = (mask xmin ymin xmax ymax left top right bottom i).setWidth 32 := by
  obtain ⟨r, p, rfl⟩ : ∃ (r : Fin 3600) (p : Fin 32768), i = ix2 r p := ⟨i 0, i 1, eq_ix2 i⟩
  exact Array.overlapBit_congr (row_at xmin p) (row_at ymin p) (row_at xmax p) (row_at ymax p)
    (col_at left r) (col_at top r) (col_at right r) (col_at bottom r)

/-- Compared with zero, it is the mask. -/
theorem tail_mask (xmin ymin xmax ymax : IVec S32768 32) (left top right bottom : IVec S3600 32) :
    (id (cmpi .ne (Array.blockFn (shapeCast S1x32768 xmin shapeCasts_S32768_S1x32768) (shapeCast S1x32768 ymin shapeCasts_S32768_S1x32768)
        (shapeCast S1x32768 xmax shapeCasts_S32768_S1x32768) (shapeCast S1x32768 ymax shapeCasts_S32768_S1x32768)
        (shapeCast S3600x1 left shapeCasts_S3600_S3600x1) (shapeCast S3600x1 top shapeCasts_S3600_S3600x1)
        (shapeCast S3600x1 right shapeCasts_S3600_S3600x1) (shapeCast S3600x1 bottom shapeCasts_S3600_S3600x1))
      (broadcastInDim S3600x32768 ![] bcast_S_S3600x32768 (constantI S_ 32 0#32))) : IVec S3600x32768 1)
      = mask xmin ymin xmax ymax left top right bottom := by
  funext i
  show IntOp.cmpi .ne (Array.blockFn _ _ _ _ _ _ _ _ i) 0#32 = _
  rw [blockFn_relaid, widened_ne_zero]

/-- What the result buffer holds after the host operations that follow the region. -/
theorem result_eq (c : Dev nD) :
    Pipeline.afterTail₀ cfgs (dats m) 0 (V0 m) [hostOps1] c main_v48
      = result (constant SSc .f32 0x00000000#32) (constant SSc .f32 0x44A00000#32) (constant SSc .f32 0x44340000#32) (m ((c.tc : Thread nD τ).loc main_arg0)) (m ((c.tc : Thread nD τ).loc main_arg1)) := by
  unfold Pipeline.afterTail₀
  show StableHlo.after hostOps1 _ (Proc.devRef .tc main_v48) = _
  after_results
  have hw : Pipeline.withArrays spec0 c (V0 m c) (fun w => (dats m 0 c).arrAt w cfg0.N) (Proc.devRef .tc main_v45)
      = (dats m 0 c).arrAt 8 cfg0.N := Pipeline.withArrays_arr spec0 launch0.win.arr_inj c _ _ 8
  rw [hw, Array.final m c _ _ _ _ _ _ _ _ (Points.xmin_row m c) (Points.ymin_row m c) (Points.xmax_row m c) (Points.ymax_row m c)
    (Tiles.left_col m c) (Tiles.top_col m c) (Tiles.right_col m c) (Tiles.bottom_col m c)]
  exact tail_mask _ _ _ _ _ _ _ _

/-- The kernel program's run: it terminates with the result buffer at `result` of the arguments, the arguments unchanged. -/
theorem run : θ_run (defs (F := Ideal)) (onTc (τ := τ) (main (F := Ideal))) ⟨m, fun _ => 0, ρ⟩ fun r => ∀ c : Dev nD,
      r.2.mem ((c.tc : Thread nD τ).loc main_v48) = result (constant SSc .f32 0x00000000#32) (constant SSc .f32 0x44A00000#32) (constant SSc .f32 0x44340000#32) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v48 (Pipeline.mem_restRefs_of main_v48 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.MaskValue

end
-- ==== Proof.RefOps.lean ====
/-
  The reference program's @main as one straight line of host operations.

  @main is 83 statements in two windows; five of them are calls (four of `clip`, one of `floor_divide`, which itself
  calls `_where`). A call means its callee's body over the call's own buffers, so the line below lists each callee's
  operations in place, over the call's buffer record: a `clip` is six operations (the lower bound converted and
  spread over the points, the maximum, the upper bound converted and spread, the minimum), `floor_divide` is seventeen
  (the truncated quotient, the two sign tests, the remainder test, the quotient less one, and `_where`'s select).
  `main_eq` says @main is that line: both sides are one chain of steps once sequencing is reassociated.
-/
import proofs.«141010_j59493886984836_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 118 operations, in order, the calls' bodies in place. -/
abbrev ops : List (HloOp τ sig (Elt F)) :=
  [ StableHlo.unary main_arg0 main_v0 ((extractStridedSlice S32768x1 ![0, 0] · slices_S32768x2_S32768x1_0_0) : (⟨S32768x2, .f32⟩ : BufTy).Contents (Elt F) → (⟨S32768x1, .f32⟩ : BufTy).Contents (Elt F)),
    StableHlo.reshape main_v0 main_v1 rfl shapeCasts_S32768x1_S32768,
    StableHlo.binary main_v1 main_arg1 main_v2 (subf : (⟨S32768, .f32⟩ : BufTy).Contents (Elt F) → (⟨S32768, .f32⟩ : BufTy).Contents (Elt F) → (⟨S32768, .f32⟩ : BufTy).Contents (Elt F)),
    StableHlo.nullary main_c (constantI S_ 32 0#32),
    StableHlo.nullary main_c_0 (constantI S_ 32 1280#32),
    TRef.unary (.of main_c) main_call0.v0 (sitofp .f32),
    TRef.unary main_call0.v0 main_call0.v1 (broadcastInDim S32768 ![] bcast_S_S32768),
    TRef.binary main_call0.v1 (.of main_v2) main_call0.v2 maximumf,
    TRef.unary (.of main_c_0) main_call0.v3 (sitofp .f32),
    TRef.unary main_call0.v3 main_call0.v4 (broadcastInDim S32768 ![] bcast_S_S32768),
    TRef.binary main_call0.v4 main_call0.v2 main_call0.v5 minimumf,
    StableHlo.unary main_v3 main_v4 (fptosi 32 : (⟨S32768, .f32⟩ : BufTy).Contents (Elt F) → (⟨S32768, .i32⟩ : BufTy).Contents (Elt F)),
    StableHlo.unary main_arg0 main_v5 ((extractStridedSlice S32768x1 ![0, 1] · slices_S32768x2_S32768x1_0_1) : (⟨S32768x2, .f32⟩ : BufTy).Contents (Elt F) → (⟨S32768x1, .f32⟩ : BufTy).Contents (Elt F)),
    StableHlo.reshape main_v5 main_v6 rfl shapeCasts_S32768x1_S32768,
    StableHlo.binary main_v6 main_arg1 main_v7 (subf : (⟨S32768, .f32⟩ : BufTy).Contents (Elt F) → (⟨S32768, .f32⟩ : BufTy).Contents (Elt F) → (⟨S32768, .f32⟩ : BufTy).Contents (Elt F)),
    StableHlo.nullary main_c_1 (constantI S_ 32 0#32),
    StableHlo.nullary main_c_2 (constantI S_ 32 720#32),
    TRef.unary (.of main_c_1) main_call1.v0 (sitofp .f32),
    TRef.unary main_call1.v0 main_call1.v1 (broadcastInDim S32768 ![] bcast_S_S32768),
    TRef.binary main_call1.v1 (.of main_v7) main_call1.v2 maximumf,
    TRef.unary (.of main_c_2) main_call1.v3 (sitofp .f32),
    TRef.unary main_call1.v3 main_call1.v4 (broadcastInDim S32768 ![] bcast_S_S32768),
    TRef.binary main_call1.v4 main_call1.v2 main_call1.v5 minimumf,
    StableHlo.unary main_v8 main_v9 (fptosi 32 : (⟨S32768, .f32⟩ : BufTy).Contents (Elt F) → (⟨S32768, .i32⟩ : BufTy).Contents (Elt F)),
    StableHlo.unary main_arg0 main_v10 ((extractStridedSlice S32768x1 ![0, 0] · slices_S32768x2_S32768x1_0_0) : (⟨S32768x2, .f32⟩ : BufTy).Contents (Elt F) → (⟨S32768x1, .f32⟩ : BufTy).Contents (Elt F)),
    StableHlo.reshape main_v10 main_v11 rfl shapeCasts_S32768x1_S32768,
    StableHlo.binary main_v11 main_arg1 main_v12 (addf : (⟨S32768, .f32⟩ : BufTy).Contents (Elt F) → (⟨S32768, .f32⟩ : BufTy).Contents (Elt F) → (⟨S32768, .f32⟩ : BufTy).Contents (Elt F)),
    StableHlo.nullary main_c_3 (constantI S_ 32 0#32),
    StableHlo.nullary main_c_4 (constantI S_ 32 1280#32),
    TRef.unary (.of main_c_3) main_call2.v0 (sitofp .f32),
    TRef.unary main_call2.v0 main_call2.v1 (broadcastInDim S32768 ![] bcast_S_S32768),
    TRef.binary main_call2.v1 (.of main_v12) main_call2.v2 maximumf,
    TRef.unary (.of main_c_4) main_call2.v3 (sitofp .f32),
    TRef.unary main_call2.v3 main_call2.v4 (broadcastInDim S32768 ![] bcast_S_S32768),
    TRef.binary main_call2.v4 main_call2.v2 main_call2.v5 minimumf,
    StableHlo.unary main_v13 main_v14 (fptosi 32 : (⟨S32768, .f32⟩ : BufTy).Contents (Elt F) → (⟨S32768, .i32⟩ : BufTy).Contents (Elt F)),
    StableHlo.unary main_arg0 main_v15 ((extractStridedSlice S32768x1 ![0, 1] · slices_S32768x2_S32768x1_0_1) : (⟨S32768x2, .f32⟩ : BufTy).Contents (Elt F) → (⟨S32768x1, .f32⟩ : BufTy).Contents (Elt F)),
    StableHlo.reshape main_v15 main_v16 rfl shapeCasts_S32768x1_S32768,
    StableHlo.binary main_v16 main_arg1 main_v17 (addf : (⟨S32768, .f32⟩ : BufTy).Contents (Elt F) → (⟨S32768, .f32⟩ : BufTy).Contents (Elt F) → (⟨S32768, .f32⟩ : BufTy).Contents (Elt F)),
    StableHlo.nullary main_c_5 (constantI S_ 32 0#32),
    StableHlo.nullary main_c_6 (constantI S_ 32 720#32),
    TRef.unary (.of main_c_5) main_call3.v0 (sitofp .f32),
    TRef.unary main_call3.v0 main_call3.v1 (broadcastInDim S32768 ![] bcast_S_S32768),
    TRef.binary main_call3.v1 (.of main_v17) main_call3.v2 maximumf,
    TRef.unary (.of main_c_6) main_call3.v3 (sitofp .f32),
    TRef.unary main_call3.v3 main_call3.v4 (broadcastInDim S32768 ![] bcast_S_S32768),
    TRef.binary main_call3.v4 main_call3.v2 main_call3.v5 minimumf,
    StableHlo.unary main_v18 main_v19 (fptosi 32 : (⟨S32768, .f32⟩ : BufTy).Contents (Elt F) → (⟨S32768, .i32⟩ : BufTy).Contents (Elt F)),
    StableHlo.nullary main_v20 (iotaInDim S3600 32 0),
    StableHlo.nullary main_c_7 (constantI S_ 32 45#32),
    TRef.unary (.of main_c_7) main_call4.v0 id,
    TRef.unary main_call4.v0 main_call4.v1 (broadcastInDim S3600 ![] bcast_S_S3600),
    TRef.binary (.of main_v20) main_call4.v1 main_call4.v2 Host.divsi,
    TRef.unary (.of main_v20) main_call4.v3 signi,
    TRef.unary main_call4.v0 main_call4.v4 signi,
    TRef.unary main_call4.v4 main_call4.v5 (broadcastInDim S3600 ![] bcast_S_S3600),
    TRef.binary main_call4.v3 main_call4.v5 main_call4.v6 (cmpi .ne),
    TRef.unary main_call4.v0 main_call4.v7 (broadcastInDim S3600 ![] bcast_S_S3600),
    TRef.binary (.of main_v20) main_call4.v7 main_call4.v8 Host.remsi,
    TRef.nullary main_call4.c (constantI S_ 32 0#32),
    TRef.unary main_call4.c main_call4.v9 (broadcastInDim S3600 ![] bcast_S_S3600),
    TRef.binary main_call4.v8 main_call4.v9 main_call4.v10 (cmpi .ne),
    TRef.binary main_call4.v6 main_call4.v10 main_call4.v11 andi,
    TRef.nullary main_call4.c_0 (constantI S_ 32 1#32),
    TRef.unary main_call4.c_0 main_call4.v12 (broadcastInDim S3600 ![] bcast_S_S3600),
    TRef.binary main_call4.v2 main_call4.v12 main_call4.v13 subi,
    TRef.ternary main_call4.v11 main_call4.v13 main_call4.v2 main_call4.call0.v0 select,
    StableHlo.nullary main_c_8 (constantI S_ 32 45#32),
    StableHlo.unary main_c_8 main_v22 (broadcastInDim S3600 ![] bcast_S_S3600 : (⟨S_, .i32⟩ : BufTy).Contents (Elt F) → (⟨S3600, .i32⟩ : BufTy).Contents (Elt F)),
    StableHlo.binary main_v21 main_v22 main_v23 (muli : (⟨S3600, .i32⟩ : BufTy).Contents (Elt F) → (⟨S3600, .i32⟩ : BufTy).Contents (Elt F) → (⟨S3600, .i32⟩ : BufTy).Contents (Elt F)),
    StableHlo.binary main_v20 main_v23 main_v24 (subi : (⟨S3600, .i32⟩ : BufTy).Contents (Elt F) → (⟨S3600, .i32⟩ : BufTy).Contents (Elt F) → (⟨S3600, .i32⟩ : BufTy).Contents (Elt F)),
    StableHlo.nullary main_c_9 (constantI S_ 32 16#32),
    StableHlo.unary main_c_9 main_v25 (broadcastInDim S3600 ![] bcast_S_S3600 : (⟨S_, .i32⟩ : BufTy).Contents (Elt F) → (⟨S3600, .i32⟩ : BufTy).Contents (Elt F)),
    StableHlo.binary main_v21 main_v25 main_v26 (muli : (⟨S3600, .i32⟩ : BufTy).Contents (Elt F) → (⟨S3600, .i32⟩ : BufTy).Contents (Elt F) → (⟨S3600, .i32⟩ : BufTy).Contents (Elt F)),
    StableHlo.nullary main_c_10 (constantI S_ 32 16#32),
    StableHlo.unary main_c_10 main_v27 (broadcastInDim S3600 ![] bcast_S_S3600 : (⟨S_, .i32⟩ : BufTy).Contents (Elt F) → (⟨S3600, .i32⟩ : BufTy).Contents (Elt F)),
    StableHlo.binary main_v24 main_v27 main_v28 (muli : (⟨S3600, .i32⟩ : BufTy).Contents (Elt F) → (⟨S3600, .i32⟩ : BufTy).Contents (Elt F) → (⟨S3600, .i32⟩ : BufTy).Contents (Elt F)),
    StableHlo.nullary main_c_11 (constantI S_ 32 1#32),
    StableHlo.unary main_c_11 main_v29 (broadcastInDim S3600 ![] bcast_S_S3600 : (⟨S_, .i32⟩ : BufTy).Contents (Elt F) → (⟨S3600, .i32⟩ : BufTy).Contents (Elt F)),
    StableHlo.binary main_v21 main_v29 main_v30 (addi : (⟨S3600, .i32⟩ : BufTy).Contents (Elt F) → (⟨S3600, .i32⟩ : BufTy).Contents (Elt F) → (⟨S3600, .i32⟩ : BufTy).Contents (Elt F)),
    StableHlo.nullary main_c_12 (constantI S_ 32 16#32),
    StableHlo.unary main_c_12 main_v31 (broadcastInDim S3600 ![] bcast_S_S3600 : (⟨S_, .i32⟩ : BufTy).Contents (Elt F) → (⟨S3600, .i32⟩ : BufTy).Contents (Elt F)),
    StableHlo.binary main_v30 main_v31 main_v32 (muli : (⟨S3600, .i32⟩ : BufTy).Contents (Elt F) → (⟨S3600, .i32⟩ : BufTy).Contents (Elt F) → (⟨S3600, .i32⟩ : BufTy).Contents (Elt F)),
    StableHlo.nullary main_c_13 (constantI S_ 32 1280#32),
    StableHlo.unary main_c_13 main_v33 (broadcastInDim S3600 ![] bcast_S_S3600 : (⟨S_, .i32⟩ : BufTy).Contents (Elt F) → (⟨S3600, .i32⟩ : BufTy).Contents (Elt F)),
    StableHlo.binary main_v32 main_v33 main_v34 (minsi : (⟨S3600, .i32⟩ : BufTy).Contents (Elt F) → (⟨S3600, .i32⟩ : BufTy).Contents (Elt F) → (⟨S3600, .i32⟩ : BufTy).Contents (Elt F)),
    StableHlo.nullary main_c_14 (constantI S_ 32 1#32),
    StableHlo.unary main_c_14 main_v35 (broadcastInDim S3600 ![] bcast_S_S3600 : (⟨S_, .i32⟩ : BufTy).Contents (Elt F) → (⟨S3600, .i32⟩ : BufTy).Contents (Elt F)),
    StableHlo.binary main_v24 main_v35 main_v36 (addi : (⟨S3600, .i32⟩ : BufTy).Contents (Elt F) → (⟨S3600, .i32⟩ : BufTy).Contents (Elt F) → (⟨S3600, .i32⟩ : BufTy).Contents (Elt F)),
    StableHlo.nullary main_c_15 (constantI S_ 32 16#32),
    StableHlo.unary main_c_15 main_v37 (broadcastInDim S3600 ![] bcast_S_S3600 : (⟨S_, .i32⟩ : BufTy).Contents (Elt F) → (⟨S3600, .i32⟩ : BufTy).Contents (Elt F)),
    StableHlo.binary main_v36 main_v37 main_v38 (muli : (⟨S3600, .i32⟩ : BufTy).Contents (Elt F) → (⟨S3600, .i32⟩ : BufTy).Contents (Elt F) → (⟨S3600, .i32⟩ : BufTy).Contents (Elt F)),
    StableHlo.nullary main_c_16 (constantI S_ 32 720#32),
    StableHlo.unary main_c_16 main_v39 (broadcastInDim S3600 ![] bcast_S_S3600 : (⟨S_, .i32⟩ : BufTy).Contents (Elt F) → (⟨S3600, .i32⟩ : BufTy).Contents (Elt F)),
    StableHlo.binary main_v38 main_v39 main_v40 (minsi : (⟨S3600, .i32⟩ : BufTy).Contents (Elt F) → (⟨S3600, .i32⟩ : BufTy).Contents (Elt F) → (⟨S3600, .i32⟩ : BufTy).Contents (Elt F)),
    StableHlo.unary main_v4 main_v41 (broadcastInDim S1x32768 ![1] bcast_S32768_S1x32768_1 : (⟨S32768, .i32⟩ : BufTy).Contents (Elt F) → (⟨S1x32768, .i32⟩ : BufTy).Contents (Elt F)),
    StableHlo.unary main_v26 main_v42 (broadcastInDim S3600x1 ![0] bcast_S3600_S3600x1_0 : (⟨S3600, .i32⟩ : BufTy).Contents (Elt F) → (⟨S3600x1, .i32⟩ : BufTy).Contents (Elt F)),
    StableHlo.unary main_v41 main_v43 (broadcastInDim S3600x32768 ![0, 1] bcast_S1x32768_S3600x32768_0_1 : (⟨S1x32768, .i32⟩ : BufTy).Contents (Elt F) → (⟨S3600x32768, .i32⟩ : BufTy).Contents (Elt F)),
    StableHlo.unary main_v42 main_v44 (broadcastInDim S3600x32768 ![0, 1] bcast_S3600x1_S3600x32768_0_1 : (⟨S3600x1, .i32⟩ : BufTy).Contents (Elt F) → (⟨S3600x32768, .i32⟩ : BufTy).Contents (Elt F)),
    StableHlo.binary main_v43 main_v44 main_v45 (maxsi : (⟨S3600x32768, .i32⟩ : BufTy).Contents (Elt F) → (⟨S3600x32768, .i32⟩ : BufTy).Contents (Elt F) → (⟨S3600x32768, .i32⟩ : BufTy).Contents (Elt F)),
    StableHlo.unary main_v9 main_v46 (broadcastInDim S1x32768 ![1] bcast_S32768_S1x32768_1 : (⟨S32768, .i32⟩ : BufTy).Contents (Elt F) → (⟨S1x32768, .i32⟩ : BufTy).Contents (Elt F)),
    StableHlo.unary main_v28 main_v47 (broadcastInDim S3600x1 ![0] bcast_S3600_S3600x1_0 : (⟨S3600, .i32⟩ : BufTy).Contents (Elt F) → (⟨S3600x1, .i32⟩ : BufTy).Contents (Elt F)),
    StableHlo.unary main_v46 main_v48 (broadcastInDim S3600x32768 ![0, 1] bcast_S1x32768_S3600x32768_0_1 : (⟨S1x32768, .i32⟩ : BufTy).Contents (Elt F) → (⟨S3600x32768, .i32⟩ : BufTy).Contents (Elt F)),
    StableHlo.unary main_v47 main_v49 (broadcastInDim S3600x32768 ![0, 1] bcast_S3600x1_S3600x32768_0_1 : (⟨S3600x1, .i32⟩ : BufTy).Contents (Elt F) → (⟨S3600x32768, .i32⟩ : BufTy).Contents (Elt F)),
    StableHlo.binary main_v48 main_v49 main_v50 (maxsi : (⟨S3600x32768, .i32⟩ : BufTy).Contents (Elt F) → (⟨S3600x32768, .i32⟩ : BufTy).Contents (Elt F) → (⟨S3600x32768, .i32⟩ : BufTy).Contents (Elt F)),
    StableHlo.unary main_v14 main_v51 (broadcastInDim S1x32768 ![1] bcast_S32768_S1x32768_1 : (⟨S32768, .i32⟩ : BufTy).Contents (Elt F) → (⟨S1x32768, .i32⟩ : BufTy).Contents (Elt F)),
    StableHlo.unary main_v34 main_v52 (broadcastInDim S3600x1 ![0] bcast_S3600_S3600x1_0 : (⟨S3600, .i32⟩ : BufTy).Contents (Elt F) → (⟨S3600x1, .i32⟩ : BufTy).Contents (Elt F)),
    StableHlo.unary main_v51 main_v53 (broadcastInDim S3600x32768 ![0, 1] bcast_S1x32768_S3600x32768_0_1 : (⟨S1x32768, .i32⟩ : BufTy).Contents (Elt F) → (⟨S3600x32768, .i32⟩ : BufTy).Contents (Elt F)),
    StableHlo.unary main_v52 main_v54 (broadcastInDim S3600x32768 ![0, 1] bcast_S3600x1_S3600x32768_0_1 : (⟨S3600x1, .i32⟩ : BufTy).Contents (Elt F) → (⟨S3600x32768, .i32⟩ : BufTy).Contents (Elt F)),
    StableHlo.binary main_v53 main_v54 main_v55 (minsi : (⟨S3600x32768, .i32⟩ : BufTy).Contents (Elt F) → (⟨S3600x32768, .i32⟩ : BufTy).Contents (Elt F) → (⟨S3600x32768, .i32⟩ : BufTy).Contents (Elt F)),
    StableHlo.unary main_v19 main_v56 (broadcastInDim S1x32768 ![1] bcast_S32768_S1x32768_1 : (⟨S32768, .i32⟩ : BufTy).Contents (Elt F) → (⟨S1x32768, .i32⟩ : BufTy).Contents (Elt F)),
    StableHlo.unary main_v40 main_v57 (broadcastInDim S3600x1 ![0] bcast_S3600_S3600x1_0 : (⟨S3600, .i32⟩ : BufTy).Contents (Elt F) → (⟨S3600x1, .i32⟩ : BufTy).Contents (Elt F)),
    StableHlo.unary main_v56 main_v58 (broadcastInDim S3600x32768 ![0, 1] bcast_S1x32768_S3600x32768_0_1 : (⟨S1x32768, .i32⟩ : BufTy).Contents (Elt F) → (⟨S3600x32768, .i32⟩ : BufTy).Contents (Elt F)),
    StableHlo.unary main_v57 main_v59 (broadcastInDim S3600x32768 ![0, 1] bcast_S3600x1_S3600x32768_0_1 : (⟨S3600x1, .i32⟩ : BufTy).Contents (Elt F) → (⟨S3600x32768, .i32⟩ : BufTy).Contents (Elt F)),
    StableHlo.binary main_v58 main_v59 main_v60 (minsi : (⟨S3600x32768, .i32⟩ : BufTy).Contents (Elt F) → (⟨S3600x32768, .i32⟩ : BufTy).Contents (Elt F) → (⟨S3600x32768, .i32⟩ : BufTy).Contents (Elt F)),
    StableHlo.binary main_v55 main_v45 main_v61 (cmpi .sgt : (⟨S3600x32768, .i32⟩ : BufTy).Contents (Elt F) → (⟨S3600x32768, .i32⟩ : BufTy).Contents (Elt F) → (⟨S3600x32768, .i1⟩ : BufTy).Contents (Elt F)),
    StableHlo.binary main_v60 main_v50 main_v62 (cmpi .sgt : (⟨S3600x32768, .i32⟩ : BufTy).Contents (Elt F) → (⟨S3600x32768, .i32⟩ : BufTy).Contents (Elt F) → (⟨S3600x32768, .i1⟩ : BufTy).Contents (Elt F)),
    StableHlo.binary main_v61 main_v62 main_v63 (andi : (⟨S3600x32768, .i1⟩ : BufTy).Contents (Elt F) → (⟨S3600x32768, .i1⟩ : BufTy).Contents (Elt F) → (⟨S3600x32768, .i1⟩ : BufTy).Contents (Elt F)) ]

set_option maxRecDepth 65536 in
set_option maxHeartbeats 20000000 in
/-- @main is that straight line, by computation: sequencing a step with what follows it is the step continued by what
    follows, and a callee's closing return followed by the rest is the rest — so the two windows run in order, with each
    call's body in place, unfold to the one chain of steps the list folds to. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., reshape_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., reshape_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., reshape_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., binary_bufs_sub .., binary_bufs_sub ..⟩

end Cert.ReferenceIdeal.RefValue

end
-- ==== Proof.RefRun.lean ====
/-
  The run of the reference program, read back as the tile-overlap mask.

  @main is a straight line of host operations (RefOps: `main_eq`), so every weakly fair execution of it
  terminates with each buffer at the fold of the operations over the launch contents. The fold at the result buffer is
  a composed term of the two argument arrays: the conjunction of two signed comparisons, each of a minimum against a
  maximum, of vectors spread over the [3600, 32768] grid — a point vector spread along the tiles (first to one row, then
  to all rows), a tile vector spread along the points (first to one column, then to all columns). Read at entry (r, p) a
  point vector's double spread is the vector at p and a tile vector's is the vector at r (`spreadPts`, `spreadTiles`),
  so the composed term is the mask of its eight vectors (`shape_eq`); and the eight vectors are, operation for
  operation, the four box sides and the four tile sides the mask's statement names, so the whole is its `result`.
-/
import proofs.«141010_j59493886984836_2_alg».proof.Proof.RefOps
import proofs.«141010_j59493886984836_2_alg».proof.Proof.Spec
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## A vector spread over the grid, read at one entry -/

/-- A point vector spread to one row and then to every row, read at entry (r, p): the vector at p. -/
theorem spreadPts {α : Type} (h1 : S32768.BroadcastsInDim S1x32768 (![1] : Fin 1 → Fin S1x32768.rank))
    (h2 : S1x32768.BroadcastsInDim S3600x32768 (![0, 1] : Fin 2 → Fin S3600x32768.rank))
    (x : S32768.Idx → α) (r : Fin 3600) (p : Fin 32768) :
    broadcastInDim S3600x32768 ![0, 1] h2 (broadcastInDim S1x32768 ![1] h1 x) (ix2 r p) = x (ix1 p) := by
  rw [broadcastInDim_apply ![0, 1] h2 _ (ix2 r p) (ix2 (0 : Fin 1) p) (fun a => by
        match a with
        | ⟨0, _⟩ => rfl
        | ⟨1, _⟩ => rfl),
      broadcastInDim_apply ![1] h1 x (ix2 (0 : Fin 1) p) (ix1 p) (fun a => by
        match a with
        | ⟨0, _⟩ => rfl)]

/-- A tile vector spread to one column and then to every column, read at entry (r, p): the vector at r. -/
theorem spreadTiles {α : Type} (h1 : S3600.BroadcastsInDim S3600x1 (![0] : Fin 1 → Fin S3600x1.rank))
    (h2 : S3600x1.BroadcastsInDim S3600x32768 (![0, 1] : Fin 2 → Fin S3600x32768.rank))
    (x : S3600.Idx → α) (r : Fin 3600) (p : Fin 32768) :
    broadcastInDim S3600x32768 ![0, 1] h2 (broadcastInDim S3600x1 ![0] h1 x) (ix2 r p) = x (ix1 r) := by
  rw [broadcastInDim_apply ![0, 1] h2 _ (ix2 r p) (ix2 r (0 : Fin 1)) (fun a => by
        match a with
        | ⟨0, _⟩ => rfl
        | ⟨1, _⟩ => rfl),
      broadcastInDim_apply ![0] h1 x (ix2 r (0 : Fin 1)) (ix1 r) (fun a => by
        match a with
        | ⟨0, _⟩ => rfl)]

/-! ## The composed term's shape is the mask -/

/-- The conjunction of the two comparisons of spread vectors is the mask of the eight vectors: entry by entry, each
    spread point vector is the vector at the entry's point and each spread tile vector the vector at its tile, and the
    pointwise operations read through. -/
theorem shape_eq (hp1 : S32768.BroadcastsInDim S1x32768 (![1] : Fin 1 → Fin S1x32768.rank))
    (hp2 : S1x32768.BroadcastsInDim S3600x32768 (![0, 1] : Fin 2 → Fin S3600x32768.rank))
    (ht1 : S3600.BroadcastsInDim S3600x1 (![0] : Fin 1 → Fin S3600x1.rank))
    (ht2 : S3600x1.BroadcastsInDim S3600x32768 (![0, 1] : Fin 2 → Fin S3600x32768.rank))
    (xmin ymin xmax ymax : IVec S32768 32) (left top right bottom : IVec S3600 32) :
    andi
        (cmpi .sgt
          (minsi (broadcastInDim S3600x32768 ![0, 1] hp2 (broadcastInDim S1x32768 ![1] hp1 xmax))
            (broadcastInDim S3600x32768 ![0, 1] ht2 (broadcastInDim S3600x1 ![0] ht1 right)))
          (maxsi (broadcastInDim S3600x32768 ![0, 1] hp2 (broadcastInDim S1x32768 ![1] hp1 xmin))
            (broadcastInDim S3600x32768 ![0, 1] ht2 (broadcastInDim S3600x1 ![0] ht1 left))))
        (cmpi .sgt
          (minsi (broadcastInDim S3600x32768 ![0, 1] hp2 (broadcastInDim S1x32768 ![1] hp1 ymax))
            (broadcastInDim S3600x32768 ![0, 1] ht2 (broadcastInDim S3600x1 ![0] ht1 bottom)))
          (maxsi (broadcastInDim S3600x32768 ![0, 1] hp2 (broadcastInDim S1x32768 ![1] hp1 ymin))
            (broadcastInDim S3600x32768 ![0, 1] ht2 (broadcastInDim S3600x1 ![0] ht1 top))))
      = Cert.TileOverlap.mask xmin ymin xmax ymax left top right bottom := by
  funext i
  obtain ⟨r, p, rfl⟩ : ∃ (r : Fin 3600) (p : Fin 32768), i = ix2 r p := ⟨i 0, i 1, eq_ix2 i⟩
  show IntOp.andi
        (IntOp.cmpi .sgt
          (IntOp.minsi (broadcastInDim S3600x32768 ![0, 1] hp2 (broadcastInDim S1x32768 ![1] hp1 xmax) (ix2 r p))
            (broadcastInDim S3600x32768 ![0, 1] ht2 (broadcastInDim S3600x1 ![0] ht1 right) (ix2 r p)))
          (IntOp.maxsi (broadcastInDim S3600x32768 ![0, 1] hp2 (broadcastInDim S1x32768 ![1] hp1 xmin) (ix2 r p))
            (broadcastInDim S3600x32768 ![0, 1] ht2 (broadcastInDim S3600x1 ![0] ht1 left) (ix2 r p))))
        (IntOp.cmpi .sgt
          (IntOp.minsi (broadcastInDim S3600x32768 ![0, 1] hp2 (broadcastInDim S1x32768 ![1] hp1 ymax) (ix2 r p))
            (broadcastInDim S3600x32768 ![0, 1] ht2 (broadcastInDim S3600x1 ![0] ht1 bottom) (ix2 r p)))
          (IntOp.maxsi (broadcastInDim S3600x32768 ![0, 1] hp2 (broadcastInDim S1x32768 ![1] hp1 ymin) (ix2 r p))
            (broadcastInDim S3600x32768 ![0, 1] ht2 (broadcastInDim S3600x1 ![0] ht1 top) (ix2 r p))))
      = Cert.TileOverlap.overlapBit (xmin (ix1 p)) (ymin (ix1 p)) (xmax (ix1 p)) (ymax (ix1 p))
          (left (ix1 r)) (top (ix1 r)) (right (ix1 r)) (bottom (ix1 r))
  rw [spreadPts hp1 hp2 xmax r p, spreadPts hp1 hp2 xmin r p, spreadPts hp1 hp2 ymax r p, spreadPts hp1 hp2 ymin r p,
    spreadTiles ht1 ht2 right r p, spreadTiles ht1 ht2 left r p, spreadTiles ht1 ht2 bottom r p, spreadTiles ht1 ht2 top r p]
  rfl

/-! ## The fold at the result and argument buffers -/

set_option maxRecDepth 8192 in
set_option maxHeartbeats 4000000 in
/-- The fold at the result buffer is the mask's `result` of the two argument arrays. Each operation's result at its own
    buffer is its function of its operands' contents and at any other buffer what was there, so the fold reads back as
    one composed term; its outer shape is the mask of eight vectors (`shape_eq`); and the eight are the statement's own,
    operation for operation: each box side is the positions' column, less or plus the radius, between the converted
    bounds spread over the points, truncated; the tile column is the index divided by 45 rounded down, the row what is
    left, and the four sides their multiples of 16 cut at the screen's edge (the callees' typed buffers carry their
    contents unchanged). -/
theorem out_eq (V : Valuation τ sig (Elt Ideal)) :
    after ops V (Proc.devRef .tc main_v63)
      = Cert.TileOverlap.result (sitofp .f32 (constantI S_ 32 0#32)) (sitofp .f32 (constantI S_ 32 1280#32)) (sitofp .f32 (constantI S_ 32 720#32))
          (V (Proc.devRef .tc main_arg0)) (V (Proc.devRef .tc main_arg1)) := by
  after_results_simp
  refine (shape_eq _ _ _ _ _ _ _ _ _ _ _ _).trans ?_
  rfl

set_option maxRecDepth 8192 in
set_option maxHeartbeats 4000000 in
/-- No operation writes the positions' buffer. -/
theorem arg0_eq (V : Valuation τ sig (Elt Ideal)) :
    after ops V (Proc.devRef .tc main_arg0) = V (Proc.devRef .tc main_arg0) := by
  after_results_simp

set_option maxRecDepth 8192 in
set_option maxHeartbeats 4000000 in
/-- No operation writes the radii's buffer. -/
theorem arg1_eq (V : Valuation τ sig (Elt Ideal)) :
    after ops V (Proc.devRef .tc main_arg1) = V (Proc.devRef .tc main_arg1) := by
  after_results_simp

/-! ## The run -/

/-- On every device, from any memory with zero counters: every weakly fair execution of @main terminates with the
    result buffer at the tile-overlap mask of the launch's positions and radii, clamped to [0, 1280] × [0, 720], and
    the two argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v63)
        = Cert.TileOverlap.result (sitofp .f32 (constantI S_ 32 0#32)) (sitofp .f32 (constantI S_ 32 1280#32)) (sitofp .f32 (constantI S_ 32 720#32))
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v63).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.lean ====
/-
  The certificate of the tile-overlap mask kernel against its reference.

  Both programs compute, for 3600 screen tiles (80 columns × 45 rows of side 16, cut at the 1280 × 720 screen's edge) and
  32768 points with radii, the [3600, 32768] array of bits "tile r's square and point p's clamped, integer-truncated
  bounding box overlap": min(xmax p, right r) > max(xmin p, left r) and min(ymax p, bottom r) > max(ymin p, top r), signed, on
  32-bit words (Proof/Spec.lean states it over no program).

  The two programs differ in three places, none of which changes a value over the extended reals:
    * the clamp bounds 0, 1280, 720 are float words in the kernel program and converted integers in the reference — one
      extended real each (Spec.lean `clamp_lo`, `clamp_w`, `clamp_h`);
    * the kernel lays the point vectors out as rows and the tile vectors as columns by re-laying them, and compares sixteen
      tiles per grid point against all points, writing the bits widened to words and comparing with zero afterwards; the
      reference spreads the vectors over the whole array and compares there (Proof/KernelBlock.lean, KernelArray.lean,
      KernelValue.lean on one side, the reference's run on the other);
    * the 225 blocks of sixteen rows tile the array (KernelArray.lean `cover`).
  No law used needs finiteness, so the precondition is never opened. The kernel program's frame is the generated one at
  both instances; the reference's frame is its run with the result dropped; the idealization rewrote nothing.
-/
import proofs.«141010_j59493886984836_2_alg».proof.Defs
import proofs.«141010_j59493886984836_2_alg».proof.Proof.Gen.Kernel
import proofs.«141010_j59493886984836_2_alg».proof.Proof.Gen.Kernel.Frame
import proofs.«141010_j59493886984836_2_alg».proof.Proof.Gen.KernelIdeal
import proofs.«141010_j59493886984836_2_alg».proof.Proof.Gen.KernelIdeal.Frame
import proofs.«141010_j59493886984836_2_alg».proof.Proof.Gen.ReferenceIdeal
import proofs.«141010_j59493886984836_2_alg».proof.Proof.Gen.Pre_finite_inputs
import proofs.«141010_j59493886984836_2_alg».proof.Proof.Spec
import proofs.«141010_j59493886984836_2_alg».proof.Proof.KernelValue
import proofs.«141010_j59493886984836_2_alg».proof.Proof.RefRun
import Idealize.ShloMosaic.Adequacy
import Idealize.ShloMosaic.Init

noncomputable section

namespace Cert.Proof

open Idealize.ShloMosaic Idealize.SL.Sem Cert.TileOverlap

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both runs end with the result buffer at the specification's `result` of the same two argument arrays; the clamp
    bounds' two spellings are one extended real each. -/
theorem algebraic : Cert.algebraic_KernelIdeal_ReferenceIdeal := by
  intro m ρ m' ρ' _ hagree
  refine ⟨_, Cert.KernelIdeal.MaskValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2, ← clamp_lo, ← clamp_w, ← clamp_h]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
